-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x240000 : Shape := ⟨2, ![16, 240000]⟩
abbrev S800 : Shape := ⟨1, ![800]⟩
abbrev S800x800 : Shape := ⟨2, ![800, 800]⟩
abbrev S_ : Shape := ⟨0, ![]⟩

class Facts : Prop where
  bcast_S_S16x240000 : S_.BroadcastsInDim S16x240000 (![] : Fin 0 → Fin S16x240000.rank)
  reducesTo_S16x240000_S_d0_1 : S16x240000.ReducesTo [0, 1] S_
  h_S_ : 0 < S_.numel
  bcast_S_S800 : S_.BroadcastsInDim S800 (![] : Fin 0 → Fin S800.rank)
  reducesTo_S800_S_d0 : S800.ReducesTo [0] S_
  bcast_S_S800x800 : S_.BroadcastsInDim S800x800 (![] : Fin 0 → Fin S800x800.rank)
  reducesTo_S800x800_S_d0_1 : S800x800.ReducesTo [0, 1] S_

variable [Facts]

def fn_part1 {F : FTy → Type} [FloatOps F] (main_v13 : IVec S_ 1) (main_v16 : IVec S800x800 1) : IVec S_ 1 :=
  let main_c_5 : IVec S_ 1 := constantI S_ 1 1#1
  let main_v17 : IVec S_ 1 := (fun x v => Host.reduce IntOp.andi x v reducesTo_S800x800_S_d0_1 h_S_) main_v16 main_c_5
  let main_v18 : IVec S_ 1 := andi main_v13 main_v17
  main_v18

def fn {F : FTy → Type} [FloatOps F] (main_arg0 : FVec F S16x240000 .f32) (main_arg1 : FVec F S800 .f32) (main_arg2 : FVec F S800x800 .f32) (main_arg3 : FVec F S800x800 .f32) : IVec S_ 1 :=
  let main_v0 : FVec F S16x240000 .f32 := Host.absf main_arg0
  let main_cst : FVec F S_ .f32 := constant S_ .f32 0x7F800000#32
  let main_v1 : FVec F S16x240000 .f32 := broadcastInDim S16x240000 ![] bcast_S_S16x240000 main_cst
  let main_v2 : IVec S16x240000 1 := cmpf .olt main_v0 main_v1
  let main_c : IVec S_ 1 := constantI S_ 1 1#1
  let main_v3 : IVec S_ 1 := (fun x v => Host.reduce IntOp.andi x v reducesTo_S16x240000_S_d0_1 h_S_) main_v2 main_c
  let main_v4 : FVec F S800 .f32 := Host.absf main_arg1
  let main_cst_0 : FVec F S_ .f32 := constant S_ .f32 0x7F800000#32
  let main_v5 : FVec F S800 .f32 := broadcastInDim S800 ![] bcast_S_S800 main_cst_0
  let main_v6 : IVec S800 1 := cmpf .olt main_v4 main_v5
  let main_c_1 : IVec S_ 1 := constantI S_ 1 1#1
  let main_v7 : IVec S_ 1 := (fun x v => Host.reduce IntOp.andi x v reducesTo_S800_S_d0 h_S_) main_v6 main_c_1
  let main_v8 : IVec S_ 1 := andi main_v3 main_v7
  let main_v9 : FVec F S800x800 .f32 := Host.absf main_arg2
  let main_cst_2 : FVec F S_ .f32 := constant S_ .f32 0x7F800000#32
  let main_v10 : FVec F S800x800 .f32 := broadcastInDim S800x800 ![] bcast_S_S800x800 main_cst_2
  let main_v11 : IVec S800x800 1 := cmpf .olt main_v9 main_v10
  let main_c_3 : IVec S_ 1 := constantI S_ 1 1#1
  let main_v12 : IVec S_ 1 := (fun x v => Host.reduce IntOp.andi x v reducesTo_S800x800_S_d0_1 h_S_) main_v11 main_c_3
  let main_v13 : IVec S_ 1 := andi main_v8 main_v12
  let main_v14 : FVec F S800x800 .f32 := Host.absf main_arg3
  let main_cst_4 : FVec F S_ .f32 := constant S_ .f32 0x7F800000#32
  let main_v15 : FVec F S800x800 .f32 := broadcastInDim S800x800 ![] bcast_S_S800x800 main_cst_4
  let main_v16 : IVec S800x800 1 := cmpf .olt main_v14 main_v15
  fn_part1 (F := F) main_v13 main_v16
-- ==== Kernel.lean ====
abbrev S16x240000 : Shape := ⟨2, ![16, 240000]⟩
abbrev S800 : Shape := ⟨1, ![800]⟩
abbrev S800x800 : Shape := ⟨2, ![800, 800]⟩
abbrev S16x1200x200 : Shape := ⟨3, ![16, 1200, 200]⟩
abbrev S16x1197x200 : Shape := ⟨3, ![16, 1197, 200]⟩
abbrev S16x1197x800 : Shape := ⟨3, ![16, 1197, 800]⟩
abbrev S19152x800 : Shape := ⟨2, ![19152, 800]⟩
abbrev S_ : Shape := ⟨0, ![]⟩
abbrev S19200x800 : Shape := ⟨2, ![19200, 800]⟩
abbrev S1x800 : Shape := ⟨2, ![1, 800]⟩
abbrev S512x800 : Shape := ⟨2, ![512, 800]⟩
abbrev S800x512 : Shape := ⟨2, ![800, 512]⟩
abbrev S800x512x1 : Shape := ⟨3, ![800, 512, 1]⟩
abbrev S800x512x2 : Shape := ⟨3, ![800, 512, 2]⟩
abbrev S800x1024 : Shape := ⟨2, ![800, 1024]⟩
abbrev S19200x1024 : Shape := ⟨2, ![19200, 1024]⟩
abbrev S1200x800 : Shape := ⟨2, ![1200, 800]⟩
abbrev S1200x1024 : Shape := ⟨2, ![1200, 1024]⟩
abbrev S19152x802 : Shape := ⟨2, ![19152, 802]⟩
abbrev S16x1197x401x2 : Shape := ⟨4, ![16, 1197, 401, 2]⟩

abbrev nBuf : Space → Nat
  | .hbm => 27
  | .vmem => 6
  | .smem => 0
  | _ => 0

abbrev bufTy : (tb : Table) → Fin (tcTables nBuf tb) → BufTy
  | .hbm, ⟨0, _⟩ => ⟨S16x240000, .f32⟩
  | .hbm, ⟨1, _⟩ => ⟨S800, .f32⟩
  | .hbm, ⟨2, _⟩ => ⟨S800x800, .f32⟩
  | .hbm, ⟨3, _⟩ => ⟨S800x800, .f32⟩
  | .hbm, ⟨4, _⟩ => ⟨S16x1200x200, .f32⟩
  | .hbm, ⟨5, _⟩ => ⟨S16x1197x200, .f32⟩
  | .hbm, ⟨6, _⟩ => ⟨S16x1197x200, .f32⟩
  | .hbm, ⟨7, _⟩ => ⟨S16x1197x200, .f32⟩
  | .hbm, ⟨8, _⟩ => ⟨S16x1197x200, .f32⟩
  | .hbm, ⟨9, _⟩ => ⟨S16x1197x800, .f32⟩
  | .hbm, ⟨10, _⟩ => ⟨S19152x800, .f32⟩
  | .hbm, ⟨11, _⟩ => ⟨S_, .i32⟩
  | .hbm, ⟨12, _⟩ => ⟨S_, .f32⟩
  | .hbm, ⟨13, _⟩ => ⟨S19200x800, .f32⟩
  | .hbm, ⟨14, _⟩ => ⟨S1x800, .f32⟩
  | .hbm, ⟨15, _⟩ => ⟨S512x800, .f32⟩
  | .hbm, ⟨16, _⟩ => ⟨S800x512, .f32⟩
  | .hbm, ⟨17, _⟩ => ⟨S512x800, .f32⟩
  | .hbm, ⟨18, _⟩ => ⟨S800x512, .f32⟩
  | .hbm, ⟨19, _⟩ => ⟨S800x512x1, .f32⟩
  | .hbm, ⟨20, _⟩ => ⟨S800x512x1, .f32⟩
  | .hbm, ⟨21, _⟩ => ⟨S800x512x2, .f32⟩
  | .hbm, ⟨22, _⟩ => ⟨S800x1024, .f32⟩
  | .hbm, ⟨23, _⟩ => ⟨S800x1024, .bf16⟩
  | .hbm, ⟨24, _⟩ => ⟨S19200x1024, .f32⟩
  | .hbm, ⟨25, _⟩ => ⟨S19152x802, .f32⟩
  | .hbm, ⟨26, _⟩ => ⟨S16x1197x401x2, .f32⟩
  | .local _ .vmem, ⟨0, _⟩ => ⟨S1200x800, .f32⟩
  | .local _ .vmem, ⟨1, _⟩ => ⟨S1200x800, .f32⟩
  | .local _ .vmem, ⟨2, _⟩ => ⟨S1x800, .f32⟩
  | .local _ .vmem, ⟨3, _⟩ => ⟨S800x1024, .bf16⟩
  | .local _ .vmem, ⟨4, _⟩ => ⟨S1200x1024, .f32⟩
  | .local _ .vmem, ⟨5, _⟩ => ⟨S1200x1024, .f32⟩
  | _, _ => ⟨S16x240000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S800x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1200x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x240000_S16x1200x200 : S16x240000.ShapeCasts S16x1200x200
  slices_S16x1200x200_S16x1197x200_0_0_0 : S16x1200x200.Slices ![0, 0, 0] S16x1197x200
  slices_S16x1200x200_S16x1197x200_0_1_0 : S16x1200x200.Slices ![0, 1, 0] S16x1197x200
  slices_S16x1200x200_S16x1197x200_0_2_0 : S16x1200x200.Slices ![0, 2, 0] S16x1197x200
  slices_S16x1200x200_S16x1197x200_0_3_0 : S16x1200x200.Slices ![0, 3, 0] S16x1197x200
  concatenates_S16x1197x200_S16x1197x200_S16x1197x200_S16x1197x200_S16x1197x800_d2 : Shape.Concatenates [S16x1197x200, S16x1197x200, S16x1197x200, S16x1197x200] S16x1197x800 2
  shapeCasts_S16x1197x800_S19152x800 : S16x1197x800.ShapeCasts S19152x800
  pads_S19152x800_S19200x800_0480_000 : S19152x800.Pads (![0, 0] : Fin 2 → Nat) ![48, 0] ![0, 0] S19200x800
  h_S_ : 0 < S_.numel
  shapeCasts_S800_S1x800 : S800.ShapeCasts S1x800
  slices_S800x800_S512x800_0_0 : S800x800.Slices ![0, 0] S512x800
  transposes_S512x800_S800x512_1_0 : S512x800.Transposes [1, 0] S800x512
  bcast_S800x512_S800x512x1_0_1 : S800x512.BroadcastsInDim S800x512x1 (![0, 1] : Fin 2 → Fin S800x512x1.rank)
  concatenates_S800x512x1_S800x512x1_S800x512x2_d2 : Shape.Concatenates [S800x512x1, S800x512x1] S800x512x2 2
  shapeCasts_S800x512x2_S800x1024 : S800x512x2.ShapeCasts S800x1024
  bitsLt_bf16_f32 : FTy.bits .bf16 < FTy.bits .f32
  inb_S1200x800_S1200x800_0_0 : ∀ a, (![0, 0] : Fin 2 → Nat) a + S1200x800.size a ≤ S1200x800.size a
  h_S1200x800 : 0 < S1200x800.numel
  shapeCasts_S1200x800_S1200x800 : S1200x800.ShapeCasts S1200x800
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S1200x800 : S1x800.Broadcasts S1200x800
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  inb_S1200x1024_S1200x1024_0_0 : ∀ a, (![0, 0] : Fin 2 → Nat) a + S1200x1024.size a ≤ S1200x1024.size a
  h_S1200x1024 : 0 < S1200x1024.numel
  slices_S19200x1024_S19152x802_0_0 : S19200x1024.Slices ![0, 0] S19152x802
  shapeCasts_S19152x802_S16x1197x401x2 : S19152x802.ShapeCasts S16x1197x401x2
  dot_S1200x800_S800x1024_S1200x1024_1_0_0_1_n_n_wf : DotDims.WF S1200x800 S800x1024 S1200x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x800.size a ≤ S19200x800.size a
  hwx0_0 : ∀ i : grid0.Coords, EltTy.bits .f32 = 32 ∨ (Rect.block (s := S19200x800) S1200x800.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x800.size a ≤ S1x800.size a
  hwx0_1 : ∀ i : grid0.Coords, EltTy.bits .f32 = 32 ∨ (Rect.block (s := S1x800) S1x800.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S800x1024.size a ≤ S800x1024.size a
  hwx0_2 : ∀ i : grid0.Coords, EltTy.bits .bf16 = 32 ∨ (Rect.block (s := S800x1024) S800x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1200x1024.size a ≤ S19200x1024.size a
  hwx0_3 : ∀ i : grid0.Coords, EltTy.bits .f32 = 32 ∨ (Rect.block (s := S19200x1024) S1200x1024.size (cc0_transform_3 i) (hinb0_3 i)).WholeWords (EltTy.packing .f32)

variable [Facts₀]

def dot_S1200x800_S800x1024_S1200x1024_1_0_0_1_n_n : DotDims S1200x800 S800x1024 S1200x1024 where
  lhsContracting := [1]
  rhsContracting := [0]
  lhsNonContracting := [0]
  rhsNonContracting := [1]
  lhsBatch := []
  rhsBatch := []
  wf := dot_S1200x800_S800x1024_S1200x1024_1_0_0_1_n_n_wf

abbrev win0_0 : Pipeline.Window sig grid0 :=
  Pipeline.Window.ofSpec (Memref.whole main_v7) S1200x800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S800x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1200x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x240000 : Shape := ⟨2, ![16, 240000]⟩
abbrev S800 : Shape := ⟨1, ![800]⟩
abbrev S800x800 : Shape := ⟨2, ![800, 800]⟩
abbrev S1197 : Shape := ⟨1, ![1197]⟩
abbrev S_ : Shape := ⟨0, ![]⟩
abbrev S1197x1 : Shape := ⟨2, ![1197, 1]⟩
abbrev S1x800 : Shape := ⟨2, ![1, 800]⟩
abbrev S1197x800 : Shape := ⟨2, ![1197, 800]⟩
abbrev S1197x800x1 : Shape := ⟨3, ![1197, 800, 1]⟩
abbrev S16x1197x800 : Shape := ⟨3, ![16, 1197, 800]⟩
abbrev S1x1x800 : Shape := ⟨3, ![1, 1, 800]⟩
abbrev S16x1197x401 : Shape := ⟨3, ![16, 1197, 401]⟩
abbrev S16x1197x401x1 : Shape := ⟨4, ![16, 1197, 401, 1]⟩
abbrev S16x1197x401x2 : Shape := ⟨4, ![16, 1197, 401, 2]⟩

abbrev nBuf : Space → Nat
  | .hbm => 33
  | .vmem => 0
  | .smem => 0
  | _ => 0

abbrev bufTy : (tb : Table) → Fin (tcTables nBuf tb) → BufTy
  | .hbm, ⟨0, _⟩ => ⟨S16x240000, .f32⟩
  | .hbm, ⟨1, _⟩ => ⟨S800, .f32⟩
  | .hbm, ⟨2, _⟩ => ⟨S800x800, .f32⟩
  | .hbm, ⟨3, _⟩ => ⟨S800x800, .f32⟩
  | .hbm, ⟨4, _⟩ => ⟨S1197, .i32⟩
  | .hbm, ⟨5, _⟩ => ⟨S_, .i32⟩
  | .hbm, ⟨6, _⟩ => ⟨S1197, .i32⟩
  | .hbm, ⟨7, _⟩ => ⟨S1197, .i32⟩
  | .hbm, ⟨8, _⟩ => ⟨S800, .i32⟩
  | .hbm, ⟨9, _⟩ => ⟨S1197x1, .i32⟩
  | .hbm, ⟨10, _⟩ => ⟨S1x800, .i32⟩
  | .hbm, ⟨11, _⟩ => ⟨S1197x800, .i32⟩
  | .hbm, ⟨12, _⟩ => ⟨S1197x800, .i32⟩
  | .hbm, ⟨13, _⟩ => ⟨S1197x800, .i32⟩
  | .hbm, ⟨14, _⟩ => ⟨S_, .i32⟩
  | .hbm, ⟨15, _⟩ => ⟨S1197x800, .i32⟩
  | .hbm, ⟨16, _⟩ => ⟨S1197x800, .i1⟩
  | .hbm, ⟨17, _⟩ => ⟨S_, .i32⟩
  | .hbm, ⟨18, _⟩ => ⟨S1197x800, .i32⟩
  | .hbm, ⟨19, _⟩ => ⟨S1197x800, .i32⟩
  | .hbm, ⟨20, _⟩ => ⟨S1197x800, .i32⟩
  | .hbm, ⟨21, _⟩ => ⟨S1197x800x1, .i32⟩
  | .hbm, ⟨22, _⟩ => ⟨S16x1197x800, .f32⟩
  | .hbm, ⟨23, _⟩ => ⟨S1x1x800, .f32⟩
  | .hbm, ⟨24, _⟩ => ⟨S16x1197x800, .f32⟩
  | .hbm, ⟨25, _⟩ => ⟨S16x1197x800, .f32⟩
  | .hbm, ⟨26, _⟩ => ⟨S16x1197x800, .f32⟩
  | .hbm, ⟨27, _⟩ => ⟨S16x1197x800, .f32⟩
  | .hbm, ⟨28, _⟩ => ⟨S16x1197x401, .f32⟩
  | .hbm, ⟨29, _⟩ => ⟨S16x1197x401, .f32⟩
  | .hbm, ⟨30, _⟩ => ⟨S16x1197x401x1, .f32⟩
  | .hbm, ⟨31, _⟩ => ⟨S16x1197x401x1, .f32⟩
  | .hbm, ⟨32, _⟩ => ⟨S16x1197x401x2, .f32⟩
  | _, _ => ⟨S16x240000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S1197 : S_.BroadcastsInDim S1197 (![] : Fin 0 → Fin S1197.rank)
  bcast_S1197_S1197x1_0 : S1197.BroadcastsInDim S1197x1 (![0] : Fin 1 → Fin S1197x1.rank)
  bcast_S800_S1x800_1 : S800.BroadcastsInDim S1x800 (![1] : Fin 1 → Fin S1x800.rank)
  bcast_S1197x1_S1197x800_0_1 : S1197x1.BroadcastsInDim S1197x800 (![0, 1] : Fin 2 → Fin S1197x800.rank)
  bcast_S1x800_S1197x800_0_1 : S1x800.BroadcastsInDim S1197x800 (![0, 1] : Fin 2 → Fin S1197x800.rank)
  bcast_S_S1197x800 : S_.BroadcastsInDim S1197x800 (![] : Fin 0 → Fin S1197x800.rank)
  bcast_S1197x800_S1197x800x1_0_1 : S1197x800.BroadcastsInDim S1197x800x1 (![0, 1] : Fin 2 → Fin S1197x800x1.rank)
  bcast_S800_S1x1x800_2 : S800.BroadcastsInDim S1x1x800 (![2] : Fin 1 → Fin S1x1x800.rank)
  bcast_S1x1x800_S16x1197x800_0_1_2 : S1x1x800.BroadcastsInDim S16x1197x800 (![0, 1, 2] : Fin 3 → Fin S16x1197x800.rank)
  slices_S16x1197x800_S16x1197x401_0_0_0 : S16x1197x800.Slices ![0, 0, 0] S16x1197x401
  bcast_S16x1197x401_S16x1197x401x1_0_1_2 : S16x1197x401.BroadcastsInDim S16x1197x401x1 (![0, 1, 2] : Fin 3 → Fin S16x1197x401x1.rank)
  concatenates_S16x1197x401x1_S16x1197x401x1_S16x1197x401x2_d3 : Shape.Concatenates [S16x1197x401x1, S16x1197x401x1] S16x1197x401x2 3
  gather_S16x240000_S1197x800x1_S16x1197x800_0_1_n_n_1_2_161_wf : GatherDims.WF S16x240000 S1197x800x1 S16x1197x800 [0] [1] [] [1] [] 2 ![16, 1]
  dot_S16x1197x800_S800x800_S16x1197x800_2_1_01_0_n_n_wf : DotDims.WF S16x1197x800 S800x800 S16x1197x800 [2] [1] [0, 1] [0] [] []

variable [Facts₀]

def gather_S16x240000_S1197x800x1_S16x1197x800_0_1_n_n_1_2_161 : GatherDims S16x240000 S1197x800x1 S16x1197x800 where
  offsetDims := [0]
  collapsedSliceDims := [1]
  operandBatchingDims := []
  startIndicesBatchingDims := []
  startIndexMap := [1]
  indexVectorDim := 2
  sliceSizes := ![16, 1]
  wf := gather_S16x240000_S1197x800x1_S16x1197x800_0_1_n_n_1_2_161_wf
def dot_S16x1197x800_S800x800_S16x1197x800_2_1_01_0_n_n : DotDims S16x1197x800 S800x800 S16x1197x800 where
  lhsContracting := [2]
  rhsContracting := [1]
  lhsNonContracting := [0, 1]
  rhsNonContracting := [0]
  lhsBatch := []
  rhsBatch := []
  wf := dot_S16x1197x800_S800x800_S16x1197x800_2_1_01_0_n_n_wf

class Facts : Prop extends Facts₀ where

variable [Facts]
-- ==== Proof.KB.Host.lean ====
/-
  The host side of `Kernel`'s frame: what the TensorCore's buffers hold when the one kernel region is entered, that
  @main is "host lines, the region, host lines", that no host line before or after the region writes an argument
  array, each window's block at a grid point, and the step from a run of the region to the frame claim's post.

  @main first builds the 19152 × 800 matrix of overlapping frames (a reshape of the signal into chunks of 200, four
  shifted slices of 1197 chunks joined side by side, the two leading axes merged), pads it with 48 zero rows, lays the
  window out as one row, and interleaves the first 512 rows of the two transform tables, transposed, column by
  column; after the region it drops the pad rows and the unused columns and splits the axes again.  None of these
  lines has an argument array as its result, which is all the frame needs of them.
-/
import proofs.«170321_j31473520345491_2_alg».proof.Proof.Gen.Kernel.Launch
import proofs.«170321_j31473520345491_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the launch memory after the three stretches of host lines
    that precede it (the frame matrix; its padding, an outlined function; the window row and the interleaved tables). -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the two host lines after it: run from the launch
    memory it reaches the region with the buffers at `V`, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-- No line before the region has the reference `b` as its result when `b` is none of the twenty results listed. -/
theorem V_of_not_result (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_c
      ∧ b ≠ main_call0_v0 ∧ b ≠ main_v7 ∧ b ≠ main_v8 ∧ b ≠ main_v9 ∧ b ≠ main_v10 ∧ b ≠ main_v11 ∧ b ≠ main_v12
      ∧ b ≠ main_v13 ∧ b ≠ main_v14 ∧ b ≠ main_v15 ∧ b ≠ main_v16 ∧ b ≠ main_v17) :
    V m c b = m ((c : Thread nD τ).loc b) :=
  StableHlo.after_of_forall_not_mem (b := Proc.devRef .tc b) _ _ (List.forall_iff_forall_mem.mp (by
    obtain ⟨h0, h1, h2, h3, h4, h5, h6, h7, h8, h9, h10, h11, h12, h13, h14, h15, h16, h17, h18, h19⟩ := hb
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by assumption)))

/-- The region finds each argument array as launched. -/
theorem V_main_arg0 (c : Dev nD) : V m c main_arg0 = m ((c : Thread nD τ).loc main_arg0) :=
  V_of_not_result m c main_arg0 (by decide)
theorem V_main_arg1 (c : Dev nD) : V m c main_arg1 = m ((c : Thread nD τ).loc main_arg1) :=
  V_of_not_result m c main_arg1 (by decide)
theorem V_main_arg2 (c : Dev nD) : V m c main_arg2 = m ((c : Thread nD τ).loc main_arg2) :=
  V_of_not_result m c main_arg2 (by decide)
theorem V_main_arg3 (c : Dev nD) : V m c main_arg3 = m ((c : Thread nD τ).loc main_arg3) :=
  V_of_not_result m c main_arg3 (by decide)

/-- A buffer that is neither a result of the two lines after the region nor an array of the pipeline ends as the
    region found it. -/
theorem W_of_not_result (dats : (p : Fin _) → (c : Dev nD) → Dat τ (Elt F) Unit ℕ (UR sig nD τ) ℕ (cfgs p) c) (c : Dev nD)
    (b : Ref sig .tc) (h19 : b ≠ main_v19) (h20 : b ≠ main_v20) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by assumption))),
    Pipeline.withArrays_of_ne _ c (V0 m c) _ b harr]

/-- Each argument array ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_result m dats c main_arg0 (by decide) (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_not_result m dats c main_arg1 (by decide) (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_not_result m dats c main_arg2 (by decide) (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_not_result m dats c main_arg3 (by decide) (by decide) (by decide)).trans (V_main_arg3 m c)

/-! ## The windows' blocks -/

/-- Window `w`'s block at grid point `t`, read off its array as the region finds it: for the frame matrix rows
    `1200·t … 1200·t + 1199`, for the window row and the tables the whole array, for the result the same rows of it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point — whether the pipeline fetched it there
    (the frame rows, every point) or only at the first point (the window row and the tables, whose block never
    moves) — for any proof data over the arrays `V` whose body leaves the input buffers alone. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From a run of the region to the frame claim -/

/-- A run that ends with every buffer outside the pipeline's arrays as the lines after the region leave it ends, in
    particular, with the four argument arrays as launched: none of them is an array of the pipeline (the windows
    stage host results), and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.Kernel.Hand

end
-- ==== Proof.KB.Body.lean ====
/-
  The kernel body of `Kernel` on whole staging buffers.  At a grid point the body loads its block of frame rows
  (1200 × 800), the window row (1 × 800) and the interleaved transform table (800 × 1024), multiplies every frame row
  by the window, and stores the matrix product of the weighted rows with the table over the whole 1200 × 1024 result
  block; it also loads the result block once before overwriting it, a value nothing reads.  So after the body the
  result buffer holds one piece, covering it whole: the product as a function of the three loaded blocks.
-/
import proofs.«170321_j31473520345491_2_alg».proof.Proof.Gen.Kernel.Launch
import proofs.«170321_j31473520345491_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev rFrames : Rect S1200x800 := Rect.unit (s := S1200x800) ![0, 0] S1200x800.size inb_S1200x800_S1200x800_0_0
abbrev rWindow : Rect S1x800 := Rect.unit (s := S1x800) ![0, 0] S1x800.size inb_S1x800_S1x800_0_0
abbrev rTable : Rect S800x1024 := Rect.unit (s := S800x1024) ![0, 0] S800x1024.size inb_S800x1024_S800x1024_0_0
abbrev rOut : Rect S1200x1024 := Rect.unit (s := S1200x1024) ![0, 0] S1200x1024.size inb_S1200x1024_S1200x1024_0_0

/-- The result buffer after the body, from the three input blocks: its one store, of the product payload of the
    three loads, laid over the buffer. -/
def outBlock (x0 : Vec F S1200x800 .f32) (x1 : Vec F S1x800 .f32) (x2 : Vec F S800x1024 .bf16) : Vec F S1200x1024 .f32 :=
  View.canon [⟨rOut, k0_pay1 (View.ld x0 rFrames) (View.ld x1 rWindow) (View.ld x2 rTable)⟩]

/-- The one store covers the result buffer. -/
theorem outCover (p0 : Vec F S1200x1024 .f32) (y : S1200x1024.Idx) :
    ∃ pc ∈ ([⟨rOut, p0⟩] : List (View.Piece (Elt F) S1200x1024 .f32)), y ∈ pc.1.set :=
  View.cover_of_tiled [⟨rOut, p0⟩] S1200x1024.size (by rfl) y

set_option maxHeartbeats 1000000 in
/-- The body, on whole staging buffers holding `x0`, `x1`, `x2` and anything in the result buffer, runs without a
    fault to a state with the inputs as they were and the result buffer at `outBlock x0 x1 x2`. -/
theorem sound_kernel (c : Dev nD) (E : Set ℕ) (i : grid0.Coords)
    (arg1 : Memref sig .tc .vmem S1200x800 .f32) (harg1 : arg1.IsWhole) (arg2 : Memref sig .tc .vmem S1x800 .f32) (harg2 : arg2.IsWhole)
    (arg3 : Memref sig .tc .vmem S800x1024 .bf16) (harg3 : arg3.IsWhole) (arg4 : Memref sig .tc .vmem S1200x1024 .f32) (harg4 : arg4.IsWhole)
    (x0 : Vec F S1200x800 .f32) (x1 : Vec F S1x800 .f32) (x2 : Vec F S800x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__dft_kernel i arg1 harg1 arg2 harg2 arg3 harg3 arg4 harg4) K := by
  simp only [cc0__dft_kernel_eq_skeleton]; unfold cc0__dft_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.Kernel.Hand

end
-- ==== Proof.KB.Frame.lean ====
/-
  The frame of `Kernel`: the proof data of its one pipeline (what each window's staging buffer holds after the body at
  each grid point), the body obligation at a generic point, the run of @main, and the frame claim — every weakly fair
  execution terminates without a fault and leaves the four argument arrays as launched.

  The pipeline has sixteen points; at point `t` the body sees rows `1200·t … 1200·t + 1199` of the padded frame matrix,
  the window row and the whole table, and leaves in the result window the block `outBlock` of those three, which the
  pipeline writes back to rows `1200·t …` of the 19200 × 1024 result array.  The body keeps nothing between points.
-/
import proofs.«170321_j31473520345491_2_alg».proof.Proof.KB.Host
import proofs.«170321_j31473520345491_2_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input buffer still at its block
    and the result buffer at `outBlock` of the three input blocks; the invariant is the untouched rest (scoped buffers
    and the core's random-number register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents (projected, never unfolded through the host lines). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
/-- The result window after the body at point `t`. -/
theorem after0_3 (c : Dev nD) (t : Fin cfg0.N) :
    (dats m 0 c).after 3 t = outBlock (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the (empty) debt, and the four current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and the
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what its write-backs leave (`Dat.arrAt`) and every other buffer as the two lines after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KI.Host.lean ====
/-
  The host side of `KernelIdeal`'s frame: what the TensorCore's buffers hold when the one kernel region is entered, that
  @main is "host lines, the region, host lines", that no host line before or after the region writes an argument
  array, each window's block at a grid point, and the step from a run of the region to the frame claim's post.

  @main first builds the 19152 × 800 matrix of overlapping frames (a reshape of the signal into chunks of 200, four
  shifted slices of 1197 chunks joined side by side, the two leading axes merged), pads it with 48 zero rows, lays the
  window out as one row, and interleaves the first 512 rows of the two transform tables, transposed, column by
  column; after the region it drops the pad rows and the unused columns and splits the axes again.  None of these
  lines has an argument array as its result, which is all the frame needs of them.
-/
import proofs.«170321_j31473520345491_2_alg».proof.Proof.Gen.KernelIdeal.Launch
import proofs.«170321_j31473520345491_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the launch memory after the three stretches of host lines
    that precede it (the frame matrix; its padding, an outlined function; the window row and the interleaved tables). -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the two host lines after it: run from the launch
    memory it reaches the region with the buffers at `V`, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-- No line before the region has the reference `b` as its result when `b` is none of the twenty results listed. -/
theorem V_of_not_result (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_c
      ∧ b ≠ main_call0_v0 ∧ b ≠ main_v7 ∧ b ≠ main_v8 ∧ b ≠ main_v9 ∧ b ≠ main_v10 ∧ b ≠ main_v11 ∧ b ≠ main_v12
      ∧ b ≠ main_v13 ∧ b ≠ main_v14 ∧ b ≠ main_v15 ∧ b ≠ main_v16 ∧ b ≠ main_v17) :
    V m c b = m ((c : Thread nD τ).loc b) :=
  StableHlo.after_of_forall_not_mem (b := Proc.devRef .tc b) _ _ (List.forall_iff_forall_mem.mp (by
    obtain ⟨h0, h1, h2, h3, h4, h5, h6, h7, h8, h9, h10, h11, h12, h13, h14, h15, h16, h17, h18, h19⟩ := hb
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by assumption)))

/-- The region finds each argument array as launched. -/
theorem V_main_arg0 (c : Dev nD) : V m c main_arg0 = m ((c : Thread nD τ).loc main_arg0) :=
  V_of_not_result m c main_arg0 (by decide)
theorem V_main_arg1 (c : Dev nD) : V m c main_arg1 = m ((c : Thread nD τ).loc main_arg1) :=
  V_of_not_result m c main_arg1 (by decide)
theorem V_main_arg2 (c : Dev nD) : V m c main_arg2 = m ((c : Thread nD τ).loc main_arg2) :=
  V_of_not_result m c main_arg2 (by decide)
theorem V_main_arg3 (c : Dev nD) : V m c main_arg3 = m ((c : Thread nD τ).loc main_arg3) :=
  V_of_not_result m c main_arg3 (by decide)

/-- A buffer that is neither a result of the two lines after the region nor an array of the pipeline ends as the
    region found it. -/
theorem W_of_not_result (dats : (p : Fin _) → (c : Dev nD) → Dat τ (Elt F) Unit ℕ (UR sig nD τ) ℕ (cfgs p) c) (c : Dev nD)
    (b : Ref sig .tc) (h19 : b ≠ main_v19) (h20 : b ≠ main_v20) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by assumption))),
    Pipeline.withArrays_of_ne _ c (V0 m c) _ b harr]

/-- Each argument array ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_result m dats c main_arg0 (by decide) (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_not_result m dats c main_arg1 (by decide) (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_not_result m dats c main_arg2 (by decide) (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_not_result m dats c main_arg3 (by decide) (by decide) (by decide)).trans (V_main_arg3 m c)

/-! ## The windows' blocks -/

/-- Window `w`'s block at grid point `t`, read off its array as the region finds it: for the frame matrix rows
    `1200·t … 1200·t + 1199`, for the window row and the tables the whole array, for the result the same rows of it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point — whether the pipeline fetched it there
    (the frame rows, every point) or only at the first point (the window row and the tables, whose block never
    moves) — for any proof data over the arrays `V` whose body leaves the input buffers alone. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From a run of the region to the frame claim -/

/-- A run that ends with every buffer outside the pipeline's arrays as the lines after the region leave it ends, in
    particular, with the four argument arrays as launched: none of them is an array of the pipeline (the windows
    stage host results), and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.KernelIdeal.Hand

end
-- ==== Proof.KI.Body.lean ====
/-
  The kernel body of `KernelIdeal` on whole staging buffers.  At a grid point the body loads its block of frame rows
  (1200 × 800), the window row (1 × 800) and the interleaved transform table (800 × 1024), multiplies every frame row
  by the window, and stores the matrix product of the weighted rows with the table over the whole 1200 × 1024 result
  block; it also loads the result block once before overwriting it, a value nothing reads.  So after the body the
  result buffer holds one piece, covering it whole: the product as a function of the three loaded blocks.
-/
import proofs.«170321_j31473520345491_2_alg».proof.Proof.Gen.KernelIdeal.Launch
import proofs.«170321_j31473520345491_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev rFrames : Rect S1200x800 := Rect.unit (s := S1200x800) ![0, 0] S1200x800.size inb_S1200x800_S1200x800_0_0
abbrev rWindow : Rect S1x800 := Rect.unit (s := S1x800) ![0, 0] S1x800.size inb_S1x800_S1x800_0_0
abbrev rTable : Rect S800x1024 := Rect.unit (s := S800x1024) ![0, 0] S800x1024.size inb_S800x1024_S800x1024_0_0
abbrev rOut : Rect S1200x1024 := Rect.unit (s := S1200x1024) ![0, 0] S1200x1024.size inb_S1200x1024_S1200x1024_0_0

/-- The result buffer after the body, from the three input blocks: its one store, of the product payload of the
    three loads, laid over the buffer. -/
def outBlock (x0 : Vec F S1200x800 .f32) (x1 : Vec F S1x800 .f32) (x2 : Vec F S800x1024 .bf16) : Vec F S1200x1024 .f32 :=
  View.canon [⟨rOut, k0_pay1 (View.ld x0 rFrames) (View.ld x1 rWindow) (View.ld x2 rTable)⟩]

/-- The one store covers the result buffer. -/
theorem outCover (p0 : Vec F S1200x1024 .f32) (y : S1200x1024.Idx) :
    ∃ pc ∈ ([⟨rOut, p0⟩] : List (View.Piece (Elt F) S1200x1024 .f32)), y ∈ pc.1.set :=
  View.cover_of_tiled [⟨rOut, p0⟩] S1200x1024.size (by rfl) y

set_option maxHeartbeats 1000000 in
/-- The body, on whole staging buffers holding `x0`, `x1`, `x2` and anything in the result buffer, runs without a
    fault to a state with the inputs as they were and the result buffer at `outBlock x0 x1 x2`. -/
theorem sound_kernel (c : Dev nD) (E : Set ℕ) (i : grid0.Coords)
    (arg1 : Memref sig .tc .vmem S1200x800 .f32) (harg1 : arg1.IsWhole) (arg2 : Memref sig .tc .vmem S1x800 .f32) (harg2 : arg2.IsWhole)
    (arg3 : Memref sig .tc .vmem S800x1024 .bf16) (harg3 : arg3.IsWhole) (arg4 : Memref sig .tc .vmem S1200x1024 .f32) (harg4 : arg4.IsWhole)
    (x0 : Vec F S1200x800 .f32) (x1 : Vec F S1x800 .f32) (x2 : Vec F S800x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__dft_kernel i arg1 harg1 arg2 harg2 arg3 harg3 arg4 harg4) K := by
  simp only [cc0__dft_kernel_eq_skeleton]; unfold cc0__dft_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.KernelIdeal.Hand

end
-- ==== Proof.KI.Frame.lean ====
/-
  The frame of `KernelIdeal`: the proof data of its one pipeline (what each window's staging buffer holds after the body at
  each grid point), the body obligation at a generic point, the run of @main, and the frame claim — every weakly fair
  execution terminates without a fault and leaves the four argument arrays as launched.

  The pipeline has sixteen points; at point `t` the body sees rows `1200·t … 1200·t + 1199` of the padded frame matrix,
  the window row and the whole table, and leaves in the result window the block `outBlock` of those three, which the
  pipeline writes back to rows `1200·t …` of the 19200 × 1024 result array.  The body keeps nothing between points.
-/
import proofs.«170321_j31473520345491_2_alg».proof.Proof.KI.Host
import proofs.«170321_j31473520345491_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input buffer still at its block
    and the result buffer at `outBlock` of the three input blocks; the invariant is the untouched rest (scoped buffers
    and the core's random-number register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents (projected, never unfolded through the host lines). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
/-- The result window after the body at point `t`. -/
theorem after0_3 (c : Dev nD) (t : Fin cfg0.N) :
    (dats m 0 c).after 3 t = outBlock (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the (empty) debt, and the four current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and the
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what its write-backs leave (`Dat.arrAt`) and every other buffer as the two lines after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.KI.Payload.lean ====
/-
  The value the body stores, read at one entry.  At the ideal instance the body's product of the weighted frame rows
  with the table, into a zero accumulator, is at row `r` and column `j` the sum over the 800 samples `n` of
  `(x0[r, n] · x1[0, n]) · x2[n, j]`: the casts to the same shape are the identity, the window row is repeated down
  the rows, narrowing to bf16 changes nothing, and the matrix unit's contraction is the plain sum.
-/
import proofs.«170321_j31473520345491_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-- The body's contraction record: left [1200, 800] contracted on axis 1 with right [800, 1024] on axis 0. -/
abbrev DD := dot_S1200x800_S800x1024_S1200x1024_1_0_0_1_n_n

theorem dd_lhs0 (i : S1200x1024.Idx) (q : DD.contr.Idx) : (DD.lhsIdx i q 0).val = (i 0).val := by
  unfold DotDims.lhsIdx
  rw [dif_neg (show ¬(0 : Fin S1200x800.rank) ∈ DD.lhsBatch by decide), dif_pos (show (0 : Fin S1200x800.rank) ∈ DD.lhsNonContracting by decide)]
  rfl
theorem dd_lhs1 (i : S1200x1024.Idx) (q : DD.contr.Idx) : (DD.lhsIdx i q 1).val = (q ⟨0, by decide⟩).val :=
  DD.lhsIdx_val_of_single rfl i q
theorem dd_rhs0 (i : S1200x1024.Idx) (q : DD.contr.Idx) : (DD.rhsIdx i q 0).val = (q ⟨0, by decide⟩).val :=
  DD.rhsIdx_val_of_single rfl i q
theorem dd_rhs1 (i : S1200x1024.Idx) (q : DD.contr.Idx) : (DD.rhsIdx i q 1).val = (i 1).val := by
  unfold DotDims.rhsIdx
  rw [dif_neg (show ¬(1 : Fin S800x1024.rank) ∈ DD.rhsBatch by decide), dif_pos (show (1 : Fin S800x1024.rank) ∈ DD.rhsNonContracting by decide)]
  rfl

/-- The stored product at row `r`, column `j`. -/
theorem payload_apply (v0 : Vec Ideal S1200x800 .f32) (v2 : Vec Ideal S1x800 .f32) (v7 : Vec Ideal S800x1024 .bf16)
    (r : Fin 1200) (j : Fin 1024) :
    k0_pay1 (F := Ideal) v0 v2 v7 (ix2 r j) = ∑ n : Fin 800, (v0 (ix2 r n) * v2 (ix2 (0 : Fin 1) n)) * v7 (ix2 n j) := by
  unfold k0_pay1
  refine (Ideal.matmul_constant_zero_apply DD none _ _ (ix2 r j)).trans ?_
  rw [← Equiv.sum_comp (contrEquiv1 DD 800 rfl rfl).symm]
  refine Finset.sum_congr rfl fun n _ => ?_
  have hk := contrEquiv1_symm_val DD 800 rfl rfl n
  have el : DD.lhsIdx (ix2 r j) ((contrEquiv1 DD 800 rfl rfl).symm n) = ix2 r n := funext fun a => Fin.ext (by
    match a with
    | ⟨0, _⟩ => exact dd_lhs0 _ _
    | ⟨1, _⟩ => exact (dd_lhs1 _ _).trans hk)
  have er : DD.rhsIdx (ix2 r j) ((contrEquiv1 DD 800 rfl rfl).symm n) = ix2 n j := funext fun a => Fin.ext (by
    match a with
    | ⟨0, _⟩ => exact (dd_rhs0 _ _).trans hk
    | ⟨1, _⟩ => exact dd_rhs1 _ _)
  rw [el, er, shapeCast_self, shapeCast_self, shapeCast_self]
  show (v0 (ix2 r n) * broadcastTo S1200x800 v2 broadcasts_S1x800_S1200x800 (ix2 r n)) * v7 (ix2 n j) = _
  rw [broadcastTo_1b_ab_apply]

end Cert.KernelIdeal.Hand

end
-- ==== Proof.KI.Terms.lean ====
/-
  The host lines of the idealized kernel's @main as four pure functions of arrays: the padded matrix of overlapping
  frames, the window as one row, the interleaved transform table, and the re-laying of the region's result.
-/
import proofs.«170321_j31473520345491_2_alg».proof.KernelIdeal
import proofs.«170321_j31473520345491_2_alg».proof.Proof.Gen.KernelIdeal
import Idealize.ShloMosaic.PureOps.Ideal
import Idealize.ShloMosaic.Lib.ValueIdx

noncomputable section

namespace Cert.KernelIdeal.Hand

open Cert.KernelIdeal Cert.KernelIdeal.Facts₀ Cert.KernelIdeal.Facts
open Idealize.ShloMosaic

variable {F : FTy → Type} [FloatOps F]

/-- The signal cut into chunks of 200 samples: f32[16, 1200, 200]. -/
def chunksT (a0 : Vec F S16x240000 .f32) : Vec F S16x1200x200 .f32 :=
  shapeCast S16x1200x200 a0 shapeCasts_S16x240000_S16x1200x200

/-- The frames, f32[16, 1197, 800]: frame `f` is chunks `f, f+1, f+2, f+3` side by side. -/
def framesT (a0 : Vec F S16x240000 .f32) : Vec F S16x1197x800 .f32 :=
  concatenate S16x1197x800 2
    [⟨S16x1197x200, extractStridedSlice S16x1197x200 ![0, 0, 0] (chunksT a0) slices_S16x1200x200_S16x1197x200_0_0_0⟩,
     ⟨S16x1197x200, extractStridedSlice S16x1197x200 ![0, 1, 0] (chunksT a0) slices_S16x1200x200_S16x1197x200_0_1_0⟩,
     ⟨S16x1197x200, extractStridedSlice S16x1197x200 ![0, 2, 0] (chunksT a0) slices_S16x1200x200_S16x1197x200_0_2_0⟩,
     ⟨S16x1197x200, extractStridedSlice S16x1197x200 ![0, 3, 0] (chunksT a0) slices_S16x1200x200_S16x1197x200_0_3_0⟩]
    concatenates_S16x1197x200_S16x1197x200_S16x1197x200_S16x1197x200_S16x1197x800_d2

/-- The frame matrix the region reads, f32[19200, 800]: the 16·1197 frames as rows, then 48 rows of the integer zero
    converted to a float. -/
def frameRowsT (a0 : Vec F S16x240000 .f32) : Vec F S19200x800 .f32 :=
  pad S19200x800 ![0, 0] ![48, 0] ![0, 0] (shapeCast S19152x800 (framesT a0) shapeCasts_S16x1197x800_S19152x800)
    (sitofp .f32 (constantI S_ 32 0#32) : Vec F S_ .f32) pads_S19152x800_S19200x800_0480_000 h_S_

/-- The window as one row, f32[1, 800]. -/
def windowRowT (a1 : Vec F S800 .f32) : Vec F S1x800 .f32 :=
  shapeCast S1x800 a1 shapeCasts_S800_S1x800

/-- The first 512 rows of a transform table, transposed, with a trailing unit axis: f32[800, 512, 1]. -/
def tableColsT (a : Vec F S800x800 .f32) : Vec F S800x512x1 .f32 :=
  broadcastInDim S800x512x1 ![0, 1] bcast_S800x512_S800x512x1_0_1
    (transpose S800x512 [1, 0] (extractStridedSlice S512x800 ![0, 0] a slices_S800x800_S512x800_0_0) transposes_S512x800_S800x512_1_0)

/-- The table the region reads, bf16[800, 1024]: column `2k` is row `k` of the cosine table, column `2k+1` row `k` of the
    sine table, narrowed to bf16. -/
def tableT (a2 a3 : Vec F S800x800 .f32) : Vec F S800x1024 .bf16 :=
  truncf .bf16
    (shapeCast S800x1024
      (concatenate S800x512x2 2 [⟨S800x512x1, tableColsT a2⟩, ⟨S800x512x1, tableColsT a3⟩] concatenates_S800x512x1_S800x512x1_S800x512x2_d2)
      shapeCasts_S800x512x2_S800x1024)
    bitsLt_bf16_f32

/-- The lines after the region: the first 19152 rows and 802 columns of the region's result, re-laid as
    f32[16, 1197, 401, 2]. -/
def resultT (o : Vec F S19200x1024 .f32) : Vec F S16x1197x401x2 .f32 :=
  shapeCast S16x1197x401x2 (extractStridedSlice S19152x802 ![0, 0] o slices_S19200x1024_S19152x802_0_0) shapeCasts_S19152x802_S16x1197x401x2

/-! ## What the region computes, over the extended reals -/

open Idealize.ShloMosaic.ValueIdx

/-- One entry of the region's result: row `r` of the frame matrix, weighted entry by entry by the window row, against
    column `j` of the table. -/
def regionAt (x0 : Vec Ideal S19200x800 .f32) (x1 : Vec Ideal S1x800 .f32) (x2 : Vec Ideal S800x1024 .bf16)
    (r : Fin 19200) (j : Fin 1024) : EReal :=
  ∑ n : Fin 800, (x0 (ix2 r n) * x1 (ix2 (0 : Fin 1) n)) * x2 (ix2 n j)

/-- The region's whole result array, f32[19200, 1024], as a function of the three arrays it reads. -/
def regionT (x0 : Vec Ideal S19200x800 .f32) (x1 : Vec Ideal S1x800 .f32) (x2 : Vec Ideal S800x1024 .bf16) :
    Vec Ideal S19200x1024 .f32 :=
  fun i => regionAt x0 x1 x2 (i 0) (i 1)

theorem regionT_ix2 (x0 : Vec Ideal S19200x800 .f32) (x1 : Vec Ideal S1x800 .f32) (x2 : Vec Ideal S800x1024 .bf16)
    (r : Fin 19200) (j : Fin 1024) : regionT x0 x1 x2 (ix2 r j) = regionAt x0 x1 x2 r j := rfl

end Cert.KernelIdeal.Hand

end
-- ==== Proof.KI.Blocks.lean ====
/-
  From the blocks the pipeline writes back to the region's whole result array, at the ideal instance.

  Point `t` of the sixteen reads rows `1200·t … 1200·t + 1199` of the frame matrix and the whole window row and table,
  and writes back rows `1200·t … 1200·t + 1199` of the result.  By the stored value read at an entry, what it writes is
  those rows of ONE function of the three arrays — `regionT`: entry (r, j) the sum over the samples of
  (frame matrix[r, n] · window[0, n]) · table[n, j] — and the sixteen row blocks tile the 19200 rows, so the array
  ends holding that function everywhere.
-/
import proofs.«170321_j31473520345491_2_alg».proof.Proof.KI.Frame
import proofs.«170321_j31473520345491_2_alg».proof.Proof.KI.Payload
import proofs.«170321_j31473520345491_2_alg».proof.Proof.KI.Terms
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ)

theorem zero_offsets : (![0, 0] : Fin 2 → Nat) = fun _ => 0 := funext fun a => by fin_cases a <;> rfl

/-- The grid has sixteen points. -/
theorem point_lt (t : Fin cfg0.N) : t.val < 16 := lt_of_lt_of_eq t.isLt N_0

/-- The printed block index maps over the grid: the frame rows and the result move with the point along the rows;
    the window row and the table stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored value over blocks that are the rows `1200·tt …` of a frame matrix `X0`, the whole of a window row `X1`
    and the whole of a table `X2`, at block entry (r, j), is `regionT X0 X1 X2` at (1200·tt + r, j). -/
theorem stored_at (X0 : Vec Ideal S19200x800 .f32) (X1 : Vec Ideal S1x800 .f32) (X2 : Vec Ideal S800x1024 .bf16)
    (x0 : Vec Ideal S1200x800 .f32) (x1 : Vec Ideal S1x800 .f32) (x2 : Vec Ideal S800x1024 .bf16)
    (tt : Nat) (htt : tt < 16)
    (h0 : ∀ (r : Fin 1200) (n : Fin 800), x0 (ix2 r n) = X0 (ix2 (⟨1200 * tt + r.val, by omega⟩ : Fin 19200) n))
    (h1 : ∀ n : Fin 800, x1 (ix2 (0 : Fin 1) n) = X1 (ix2 (0 : Fin 1) n))
    (h2 : ∀ (n : Fin 800) (j : Fin 1024), x2 (ix2 n j) = X2 (ix2 n j))
    (r : Fin 1200) (j : Fin 1024) :
    k0_pay1 (F := Ideal) x0 x1 x2 (ix2 r j) = regionT X0 X1 X2 (ix2 (⟨1200 * tt + r.val, by omega⟩ : Fin 19200) j) := by
  rw [payload_apply, regionT_ix2]
  unfold regionAt
  exact Finset.sum_congr rfl fun n _ => by rw [h0 r n, h1 n, h2 n j]

/-- The frame rows' block at point `t`: rows `1200·t …` of the frame matrix. -/
theorem frames_block (c : Dev nD) (t : Fin cfg0.N) (r : Fin 1200) (n : Fin 800) :
    iblk m c 0 t (ix2 r n)
      = (V m c main_v7 : Vec Ideal S19200x800 .f32) (ix2 (⟨1200 * t.val + r.val, by have := point_lt t; omega⟩ : Fin 19200) n) := by
  obtain ⟨e0, e1, -⟩ := idx_facts t
  show V m c main_v7 (((cfg0.win 0).blk t).view.emb (ix2 r n)) = _
  refine congrArg (V m c main_v7) (funext fun a => Fin.ext ?_)
  match a with
  | ⟨0, _⟩ => show win0_0.index t (0 : Fin 2) * 1200 + 1 * r.val = 1200 * t.val + r.val; omega
  | ⟨1, _⟩ => show win0_0.index t (1 : Fin 2) * 800 + 1 * n.val = n.val; omega

/-- The window row's block at any point is the whole row. -/
theorem window_block (c : Dev nD) (t : Fin cfg0.N) (n : Fin 800) :
    iblk m c 1 t (ix2 (0 : Fin 1) n) = (V m c main_v8 : Vec Ideal S1x800 .f32) (ix2 (0 : Fin 1) n) := by
  obtain ⟨-, -, e2, e3, -⟩ := idx_facts t
  show V m c main_v8 (((cfg0.win 1).blk t).view.emb (ix2 (0 : Fin 1) n)) = _
  refine congrArg (V m c main_v8) (funext fun a => Fin.ext ?_)
  match a with
  | ⟨0, _⟩ => show win0_1.index t (0 : Fin 2) * 1 + 1 * 0 = 0; omega
  | ⟨1, _⟩ => show win0_1.index t (1 : Fin 2) * 800 + 1 * n.val = n.val; omega

/-- The table's block at any point is the whole table. -/
theorem table_block (c : Dev nD) (t : Fin cfg0.N) (n : Fin 800) (j : Fin 1024) :
    iblk m c 2 t (ix2 n j) = (V m c main_v17 : Vec Ideal S800x1024 .bf16) (ix2 n j) := by
  obtain ⟨-, -, -, -, e4, e5, -⟩ := idx_facts t
  show V m c main_v17 (((cfg0.win 2).blk t).view.emb (ix2 n j)) = _
  refine congrArg (V m c main_v17) (funext fun a => Fin.ext ?_)
  match a with
  | ⟨0, _⟩ => show win0_2.index t (0 : Fin 2) * 800 + 1 * n.val = n.val; omega
  | ⟨1, _⟩ => show win0_2.index t (1 : Fin 2) * 1024 + 1 * j.val = j.val; omega

/-- What point `t` writes back is block `t` of `regionT` of the three arrays as the region finds them. -/
theorem flushed_eq (c : Dev nD) (t : Fin cfg0.N) :
    (dats m 0 c).flushed 3 t
      = ((cfg0.win 3).blk t).view.read (Elt Ideal) (regionT (V m c main_v7) (V m c main_v8) (V m c main_v17)) := by
  show (cfg0.win 3).cut (grid0.coords t) ((dats m 0 c).after 3 t) = _
  rw [after0_3]
  unfold outBlock
  rw [View.canon_unit_zero zero_offsets]
  simp only [View.ld_unit_zero (S := S1200x800) zero_offsets, View.ld_unit_zero (S := S1x800) zero_offsets,
    View.ld_unit_zero (S := S800x1024) zero_offsets]
  obtain ⟨-, -, -, -, -, -, e6, e7⟩ := idx_facts t
  funext y
  obtain ⟨r, j, rfl⟩ : ∃ (r : Fin 1200) (j : Fin 1024), y = ix2 r j := ⟨y 0, y 1, eq_ix2 y⟩
  refine (stored_at (V m c main_v7) (V m c main_v8) (V m c main_v17) (iblk m c 0 t) (iblk m c 1 t) (iblk m c 2 t)
    t.val (point_lt t) (frames_block m c t) (window_block m c t) (table_block m c t) r j).trans ?_
  show _ = regionT (V m c main_v7) (V m c main_v8) (V m c main_v17) (((cfg0.win 3).blk t).view.emb (ix2 r j))
  refine congrArg (regionT (V m c main_v7) (V m c main_v8) (V m c main_v17)) (funext fun a => Fin.ext ?_)
  match a with
  | ⟨0, _⟩ => show 1200 * t.val + r.val = win0_3.index t (0 : Fin 2) * 1200 + 1 * r.val; omega
  | ⟨1, _⟩ => show j.val = win0_3.index t (1 : Fin 2) * 1024 + 1 * j.val; omega

/-- An index of the result array lies in point `t`'s block iff each coordinate lies in the block's range. -/
theorem mem_blk (t : Fin cfg0.N) (i : S19200x1024.Idx) :
    i ∈ ((cfg0.win 3).blk t).view.set ↔ ∀ a : Fin 2, win0_3.index t a * S1200x1024.size a ≤ (i a).val
      ∧ (i a).val < win0_3.index t a * S1200x1024.size a + S1200x1024.size a := by
  show i ∈ ((View.whole main_v18).slice (win0_3.rect t)).set ↔ _
  rw [View.set_slice_whole, Rect.mem_set_unit]
  exact Iff.rfl

/-- Row `i 0` of the result array is written back by point `(i 0) / 1200`: the sixteen blocks tile the array. -/
theorem covered (i : S19200x1024.Idx) :
    ∃ t : Fin cfg0.N, (cfg0.win 3).flush t = true ∧ i ∈ ((cfg0.win 3).blk t).view.set := by
  have hi0 : (i 0).val < 19200 := (i 0).isLt
  have hi1 : (i 1).val < 1024 := (i 1).isLt
  obtain ⟨t, ht⟩ : ∃ t : Fin cfg0.N, t.val = (i 0).val / 1200 :=
    ⟨⟨(i 0).val / 1200, lt_of_lt_of_eq (by omega : (i 0).val / 1200 < 16) N_0.symm⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1200 ≤ (i 0).val ∧ (i 0).val < win0_3.index t (0 : Fin 2) * 1200 + 1200
    omega
  | ⟨1, _⟩ =>
    show win0_3.index t (1 : Fin 2) * 1024 ≤ (i 1).val ∧ (i 1).val < win0_3.index t (1 : Fin 2) * 1024 + 1024
    omega

/-- The region's result array after the run is `regionT` of the three arrays the region read. -/
theorem final (c : Dev nD) :
    (dats m 0 c).arrAt 3 cfg0.N = regionT (V m c main_v7) (V m c main_v8) (V m c main_v17) :=
  (dats m 0 c).arrAt_eq_of_cover 3 _ (fun t _ => flushed_eq m c t) covered

end Cert.KernelIdeal.Hand

end
-- ==== Proof.KI.HostVals.lean ====
/-
  What the three arrays the region reads hold when it is entered, and what the two lines after it make of its result:
  the padded frame matrix of the signal, the window as a row, the interleaved table of the two transform tables, and
  the re-laid result.  Each is the composition of the host lines that wrote it, applied to the launch contents of the
  argument arrays (no host line writes an argument).
-/
import proofs.«170321_j31473520345491_2_alg».proof.Proof.KI.Host
import proofs.«170321_j31473520345491_2_alg».proof.Proof.KI.Terms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window BodyObligation cellOf)

variable {F : FTy → Type} [FloatOps F]

variable (m : (ℓ : Loc nD τ sig) → Buf (Elt F) ℓ)

/-- The first window's array is the padded frame matrix of the launched signal. -/
theorem V_frameRows (c : Dev nD) :
    (V m c main_v7 : Vec F S19200x800 .f32) = frameRowsT (m ((c : Thread nD τ).loc main_arg0)) := by
  dsimp only [V, V0]
  simp only [hostOps0, hostOps0_1, hostOps0_2, List.flatten_cons, List.flatten_nil, List.append_nil, List.cons_append,
    List.nil_append]
  after_results
  rfl

/-- The second window's array is the launched window as one row. -/
theorem V_windowRow (c : Dev nD) :
    (V m c main_v8 : Vec F S1x800 .f32) = windowRowT (m ((c : Thread nD τ).loc main_arg1)) := by
  dsimp only [V, V0]
  simp only [hostOps0, hostOps0_1, hostOps0_2, List.flatten_cons, List.flatten_nil, List.append_nil, List.cons_append,
    List.nil_append]
  after_results
  rfl

/-- The third window's array is the interleaved table of the two launched transform tables. -/
theorem V_table (c : Dev nD) :
    (V m c main_v17 : Vec F S800x1024 .bf16) = tableT (m ((c : Thread nD τ).loc main_arg2)) (m ((c : Thread nD τ).loc main_arg3)) := by
  dsimp only [V, V0]
  simp only [hostOps0, hostOps0_1, hostOps0_2, List.flatten_cons, List.flatten_nil, List.append_nil, List.cons_append,
    List.nil_append]
  after_results
  rfl

/-- The program's result buffer ends at the re-laying of whatever the region's result array ends at. -/
theorem W_result (dats : (p : Fin _) → (c : Dev nD) → Dat τ (Elt F) Unit ℕ (UR sig nD τ) ℕ (cfgs p) c) (c : Dev nD) :
    (Pipeline.afterTail₀ cfgs dats 0 (V0 m) [hostOps1] c main_v20 : Vec F S16x1197x401x2 .f32)
      = resultT ((dats 0 c).arrAt 3 cfg0.N) := by
  unfold Pipeline.afterTail₀
  show StableHlo.after hostOps1 _ (Proc.devRef .tc main_v20) = _
  after_results
  have e : Pipeline.withArrays (cfgs 0).spec c (V0 m c) (fun w => (dats 0 c).arrAt w (cfgs 0).N) (Proc.devRef .tc main_v18)
      = (dats 0 c).arrAt 3 cfg0.N := Pipeline.withArrays_arr spec0 launch0.win.arr_inj c _ _ 3
  exact congrArg resultT e

end Cert.KernelIdeal.Hand

end
-- ==== Proof.KI.Value.lean ====
/-
  The idealized kernel's run, read as a value: every weakly fair execution terminates with the result buffer at the
  re-laid `regionT` of the padded frame matrix of the signal, the window row and the interleaved table — one
  function of the four argument arrays as launched — and the arguments unchanged.
-/
import proofs.«170321_j31473520345491_2_alg».proof.Proof.KI.Blocks
import proofs.«170321_j31473520345491_2_alg».proof.Proof.KI.HostVals

set_option maxRecDepth 16384

noncomputable section

namespace Cert.KernelIdeal.Hand

open Cert.KernelIdeal Cert.KernelIdeal.Gen
open Idealize.ShloMosaic Idealize.ShloMosaic.TcCoe
open Idealize.SL Idealize.SL.Sem

/-- The program as a function of its argument arrays. -/
def kernelFn (a0 : Vec Ideal S16x240000 .f32) (a1 : Vec Ideal S800 .f32) (a2 a3 : Vec Ideal S800x800 .f32) :
    Vec Ideal S16x1197x401x2 .f32 :=
  resultT (regionT (frameRowsT a0) (windowRowT a1) (tableT a2 a3))

variable (m : (ℓ : Loc nD τ sig) → Buf (Elt Ideal) ℓ) (ρ : Dev nD → PrngReg)

/-- The result buffer after the lines that follow the region. -/
theorem result_eq (c : Dev nD) :
    (Pipeline.afterTail₀ cfgs (dats m) 0 (V0 m) [hostOps1] c main_v20 : Vec Ideal S16x1197x401x2 .f32)
      = kernelFn (m ((c : Thread nD τ).loc main_arg0)) (m ((c : Thread nD τ).loc main_arg1))
          (m ((c : Thread nD τ).loc main_arg2)) (m ((c : Thread nD τ).loc main_arg3)) := by
  rw [W_result, final, V_frameRows, V_windowRow, V_table]
  rfl

theorem run : θ_run defs (onTc (τ := τ) (main (F := Ideal))) ⟨m, fun _ => 0, ρ⟩ (fun r => ∀ c : Dev nD,
      r.2.mem ((c.tc : Thread nD τ).loc main_v20)
        = kernelFn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v20 (Pipeline.mem_restRefs_of main_v20 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.KI.Layout.lean ====
/-
  The host lines read entry by entry: which signal sample, window weight or table entry sits at each index of the
  arrays the region reads, and which entry of the region's array each entry of the result is.
-/
import proofs.«170321_j31473520345491_2_alg».proof.Proof.KI.Terms
import Idealize.ShloMosaic.Lib.Pipeline.Value
import Idealize.ShloMosaic.Lib.KernelVsHost
import Idealize.ShloMosaic.Lib.ValueIdx
import Idealize.ShloMosaic.Lib.ValueLayout

noncomputable section

namespace Cert.KernelIdeal.Hand

open Cert.KernelIdeal Cert.KernelIdeal.Facts₀ Cert.KernelIdeal.Facts
open Idealize.ShloMosaic Idealize.ShloMosaic.ValueIdx

/-! ## The window -/

/-- The window laid out as one row: entry `(0, n)` of the row is weight `n`. -/
theorem windowRowT_apply (a1 : Vec Ideal S800 .f32) (n : Fin 800) :
    windowRowT (F := Ideal) a1 (ix2 (0 : Fin 1) n) = a1 (ix1 n) := by
  unfold windowRowT
  exact shapeCast_a_1a_apply a1 _ (0 : Fin 1) n

/-! ## The frames -/

/-- Cutting each batch row into chunks of 200 samples keeps the samples in order: sample `m` of chunk `c` is the
    signal's sample `200·c + m`. -/
theorem chunksT_apply (a0 : Vec Ideal S16x240000 .f32) (b : Fin 16) (c : Fin 1200) (m : Fin 200) :
    chunksT (F := Ideal) a0 (ix3 b c m) = a0 (ix2 b (⟨200 * c.val + m.val, by omega⟩ : Fin 240000)) := by
  unfold chunksT
  refine shapeCast_apply a0 _ (ix3 b c m) (ix2 b ⟨200 * c.val + m.val, by omega⟩) ?_
  rw [Shape.rowMajor_val_two, Shape.rowMajor_val_three]
  show b.val * 240000 + (200 * c.val + m.val) = (b.val * 1200 + c.val) * 200 + m.val
  omega

/-- Frame `f` is chunks `f, f+1, f+2, f+3` side by side, so its sample `n` lies in chunk `f + n / 200` at place
    `n % 200`: the signal's sample `200·(f + n / 200) + n % 200 = 200·f + n`. -/
theorem framesT_apply (a0 : Vec Ideal S16x240000 .f32) (b : Fin 16) (f : Fin 1197) (n : Fin 800) :
    framesT (F := Ideal) a0 (ix3 b f n) = a0 (ix2 b (⟨200 * f.val + n.val, by omega⟩ : Fin 240000)) := by
  unfold framesT
  have hn := n.isLt
  rcases Nat.lt_or_ge n.val 200 with h0 | h0
  · -- the first chunk of the frame
    refine Eq.trans (concatenate_apply_piece (2 : Fin 3) _ _ (ix3 b f n) 0 (by simp) S16x1197x200 _ rfl rfl 0 rfl
      (ix3 b f (⟨n.val, h0⟩ : Fin 200)) ?_ ?_) ?_
    · intro a ha
      match a with
      | ⟨0, _⟩ => rfl
      | ⟨1, _⟩ => rfl
      | ⟨2, _⟩ => exact absurd rfl ha
    · show 0 + n.val = n.val; omega
    · rw [slice3_axis1_apply 0 _ _ b f (⟨n.val, h0⟩ : Fin 200) (⟨f.val, by omega⟩ : Fin 1200) (by show f.val = 0 + f.val; omega),
        chunksT_apply]
  · rcases Nat.lt_or_ge n.val 400 with h1 | h1
    · -- the second
      refine Eq.trans (concatenate_apply_piece (2 : Fin 3) _ _ (ix3 b f n) 1 (by simp) S16x1197x200 _ rfl rfl 200 rfl
        (ix3 b f (⟨n.val - 200, by omega⟩ : Fin 200)) ?_ ?_) ?_
      · intro a ha
        match a with
        | ⟨0, _⟩ => rfl
        | ⟨1, _⟩ => rfl
        | ⟨2, _⟩ => exact absurd rfl ha
      · show 200 + (n.val - 200) = n.val; omega
      · rw [slice3_axis1_apply 1 _ _ b f (⟨n.val - 200, by omega⟩ : Fin 200) (⟨f.val + 1, by omega⟩ : Fin 1200)
            (by show f.val + 1 = 1 + f.val; omega), chunksT_apply]
        exact congrArg a0 (congrArg (ix2 b) (Fin.ext (by show 200 * (f.val + 1) + (n.val - 200) = 200 * f.val + n.val; omega)))
    · rcases Nat.lt_or_ge n.val 600 with h2 | h2
      · -- the third
        refine Eq.trans (concatenate_apply_piece (2 : Fin 3) _ _ (ix3 b f n) 2 (by simp) S16x1197x200 _ rfl rfl 400 rfl
          (ix3 b f (⟨n.val - 400, by omega⟩ : Fin 200)) ?_ ?_) ?_
        · intro a ha
          match a with
          | ⟨0, _⟩ => rfl
          | ⟨1, _⟩ => rfl
          | ⟨2, _⟩ => exact absurd rfl ha
        · show 400 + (n.val - 400) = n.val; omega
        · rw [slice3_axis1_apply 2 _ _ b f (⟨n.val - 400, by omega⟩ : Fin 200) (⟨f.val + 2, by omega⟩ : Fin 1200)
              (by show f.val + 2 = 2 + f.val; omega), chunksT_apply]
          exact congrArg a0 (congrArg (ix2 b) (Fin.ext (by show 200 * (f.val + 2) + (n.val - 400) = 200 * f.val + n.val; omega)))
      · -- the fourth
        refine Eq.trans (concatenate_apply_piece (2 : Fin 3) _ _ (ix3 b f n) 3 (by simp) S16x1197x200 _ rfl rfl 600 rfl
          (ix3 b f (⟨n.val - 600, by omega⟩ : Fin 200)) ?_ ?_) ?_
        · intro a ha
          match a with
          | ⟨0, _⟩ => rfl
          | ⟨1, _⟩ => rfl
          | ⟨2, _⟩ => exact absurd rfl ha
        · show 600 + (n.val - 600) = n.val; omega
        · rw [slice3_axis1_apply 3 _ _ b f (⟨n.val - 600, by omega⟩ : Fin 200) (⟨f.val + 3, by omega⟩ : Fin 1200)
              (by show f.val + 3 = 3 + f.val; omega), chunksT_apply]
          exact congrArg a0 (congrArg (ix2 b) (Fin.ext (by show 200 * (f.val + 3) + (n.val - 600) = 200 * f.val + n.val; omega)))

/-- The frames as rows of one matrix, batch row after batch row: row `r` is frame `r % 1197` of batch row `r / 1197`. -/
theorem frameMatrix_apply (a0 : Vec Ideal S16x240000 .f32) (r : Fin 19152) (n : Fin 800) :
    shapeCast S19152x800 (framesT (F := Ideal) a0) shapeCasts_S16x1197x800_S19152x800 (ix2 r n)
      = framesT (F := Ideal) a0 (ix3 (⟨r.val / 1197, by omega⟩ : Fin 16) (⟨r.val % 1197, by omega⟩ : Fin 1197) n) := by
  refine shapeCast_apply _ _ (ix2 r n) (ix3 (⟨r.val / 1197, by omega⟩ : Fin 16) (⟨r.val % 1197, by omega⟩ : Fin 1197) n) ?_
  rw [Shape.rowMajor_val_two, Shape.rowMajor_val_three]
  show (r.val / 1197 * 1197 + r.val % 1197) * 800 + n.val = r.val * 800 + n.val
  omega

/-- The value the 48 extra rows are filled with, the integer zero converted to a float, is the extended real zero. -/
theorem padValue_eq_zero (i : S_.Idx) :
    (sitofp (F := Ideal) .f32 (constantI S_ 32 0#32)) i = 0 := by
  show (((0#32 : BitVec 32).toInt : ℝ) : EReal) = 0
  simp

/-- Row r of the padded frame matrix: for r < 19152 it is frame r % 1197 of batch row r / 1197, whose sample n sits at
    signal position 200·(r % 1197) + n; the 48 pad rows are zero. -/
theorem frameRowsT_apply (a0 : Vec Ideal S16x240000 .f32) (r : Fin 19200) (n : Fin 800) :
    frameRowsT (F := Ideal) a0 (ix2 r n)
      = if h : r.val < 19152 then
          a0 (ix2 (⟨r.val / 1197, by omega⟩ : Fin 16) (⟨200 * (r.val % 1197) + n.val, by omega⟩ : Fin 240000))
        else 0 := by
  unfold frameRowsT
  by_cases h : r.val < 19152
  · rw [dif_pos h]
    refine Eq.trans (pad_apply_of_inside _ _ _ _ _ _ _ (ix2 r n) (ix2 (⟨r.val, h⟩ : Fin 19152) n) ?_) ?_
    · intro a
      match a with
      | ⟨0, _⟩ => show r.val = 0 + r.val * (0 + 1); omega
      | ⟨1, _⟩ => show n.val = 0 + n.val * (0 + 1); omega
    · rw [frameMatrix_apply, framesT_apply]
  · rw [dif_neg h]
    refine Eq.trans (pad_apply_of_not_inside _ _ _ _ _ _ _ (ix2 r n) (0 : Fin 2) ?_) (padValue_eq_zero _)
    show ¬(0 ≤ r.val ∧ (r.val - 0) % (0 + 1) = 0 ∧ (r.val - 0) / (0 + 1) < 19152)
    omega

/-! ## The table -/

/-- The first 512 rows of a transform table with rows and columns exchanged and a unit axis appended: entry
    `(n, k, 0)` is the table's entry `(k, n)`, sample `n` of bin `k`. -/
theorem tableColsT_apply (a : Vec Ideal S800x800 .f32) (n : Fin 800) (k : Fin 512) (u : Fin 1) :
    tableColsT (F := Ideal) a (ix3 n k u) = a (ix2 (⟨k.val, by omega⟩ : Fin 800) n) := by
  unfold tableColsT
  refine Eq.trans (broadcastInDim_apply _ _ _ (ix3 n k u) (ix2 n k) ?_) ?_
  · intro c
    match c with
    | ⟨0, _⟩ => rfl
    | ⟨1, _⟩ => rfl
  · rw [transpose_ix2_apply,
      slice2_axis0_apply 0 _ _ k n (⟨k.val, by omega⟩ : Fin 800) (by show k.val = 0 + k.val; omega)]

/-- Column j of the table: row j / 2 of the cosine table for even j, of the sine table for odd j. -/
theorem tableT_apply (a2 a3 : Vec Ideal S800x800 .f32) (n : Fin 800) (j : Fin 1024) :
    tableT (F := Ideal) a2 a3 (ix2 n j)
      = if j.val % 2 = 0 then a2 (ix2 (⟨j.val / 2, by omega⟩ : Fin 800) n)
        else a3 (ix2 (⟨j.val / 2, by omega⟩ : Fin 800) n) := by
  unfold tableT
  rw [truncf_apply]
  -- column `j` of the flattened table is entry `(j / 2, j % 2)` of the interleaved one
  refine Eq.trans (shapeCast_apply _ _ (ix2 n j)
    (ix3 n (⟨j.val / 2, by omega⟩ : Fin 512) (⟨j.val % 2, by omega⟩ : Fin 2)) ?_) ?_
  · rw [Shape.rowMajor_val_two, Shape.rowMajor_val_three]
    show (n.val * 512 + j.val / 2) * 2 + j.val % 2 = n.val * 1024 + j.val
    omega
  · by_cases hj : j.val % 2 = 0
    · rw [if_pos hj]
      refine Eq.trans (concatenate_apply_piece (t := S800x512x2) (2 : Fin 3) _ _ _ 0 (by simp) S800x512x1 _ rfl rfl 0 rfl
        (ix3 n (⟨j.val / 2, by omega⟩ : Fin 512) (0 : Fin 1)) ?_ ?_) (tableColsT_apply a2 n _ 0)
      · intro c hc
        match c with
        | ⟨0, _⟩ => rfl
        | ⟨1, _⟩ => rfl
        | ⟨2, _⟩ => exact absurd rfl hc
      · show 0 + 0 = j.val % 2; omega
    · rw [if_neg hj]
      refine Eq.trans (concatenate_apply_piece (t := S800x512x2) (2 : Fin 3) _ _ _ 1 (by simp) S800x512x1 _ rfl rfl 1 rfl
        (ix3 n (⟨j.val / 2, by omega⟩ : Fin 512) (0 : Fin 1)) ?_ ?_) (tableColsT_apply a3 n _ 0)
      · intro c hc
        match c with
        | ⟨0, _⟩ => rfl
        | ⟨1, _⟩ => rfl
        | ⟨2, _⟩ => exact absurd rfl hc
      · show 1 + 0 = j.val % 2; omega

/-! ## The result -/

/-- Entry (b, f, k, p) of the result is entry (1197·b + f, 2·k + p) of the region's array. -/
theorem resultT_apply (o : Vec Ideal S19200x1024 .f32) (b : Fin 16) (f : Fin 1197) (k : Fin 401) (p : Fin 2) :
    resultT (F := Ideal) o (ix4 b f k p)
      = o (ix2 (⟨1197 * b.val + f.val, by omega⟩ : Fin 19200) (⟨2 * k.val + p.val, by omega⟩ : Fin 1024)) := by
  unfold resultT
  refine Eq.trans (shapeCast_apply _ _ (ix4 b f k p)
    (ix2 (⟨1197 * b.val + f.val, by omega⟩ : Fin 19152) (⟨2 * k.val + p.val, by omega⟩ : Fin 802)) ?_) ?_
  · rw [Shape.rowMajor_val_two, Shape.rowMajor_val_four]
    show (1197 * b.val + f.val) * 802 + (2 * k.val + p.val) = ((b.val * 1197 + f.val) * 401 + k.val) * 2 + p.val
    omega
  · refine extractStridedSlice_apply _ _ _ _
      (ix2 (⟨1197 * b.val + f.val, by omega⟩ : Fin 19200) (⟨2 * k.val + p.val, by omega⟩ : Fin 1024)) ?_
    intro c
    match c with
    | ⟨0, _⟩ => show 1197 * b.val + f.val = 0 + (1197 * b.val + f.val); omega
    | ⟨1, _⟩ => show 2 * k.val + p.val = 0 + (2 * k.val + p.val); omega

end Cert.KernelIdeal.Hand

end
-- ==== Proof.Spec.lean ====
/-
  The short-time Fourier transform that both programs compute, as one function of the four argument arrays,
  entry by entry, over the extended reals.

  Frame `f` of batch row `b` is the 800 samples of `sig[b, ·]` starting at position `200·f`; each sample is weighted by
  the window; output bin `k` (0 ≤ k < 401) is the inner product of the weighted frame with row `k` of the cosine table
  (last coordinate 0) or of the sine table (last coordinate 1).  Every entry is a sum over the 800 samples `n` of
  `(sig[b, 200·f + n] · win[n]) · table[k, n]`, the products bracketed in that order on both sides, so no law beyond
  commutativity and associativity of the sum is needed to identify the two programs with it.
-/
import Idealize.ShloMosaic.PureOps.Ideal
import Idealize.ShloMosaic.Lib.ValueIdx

noncomputable section

namespace Cert.Stft

open Idealize.ShloMosaic Idealize.ShloMosaic.ValueIdx

/-- The signal array's index type, f32[16, 240000]. -/
abbrev SigS : Shape := ⟨2, ![16, 240000]⟩
/-- The window's, f32[800]. -/
abbrev WinS : Shape := ⟨1, ![800]⟩
/-- A transform table's, f32[800, 800] (row = output bin, column = sample). -/
abbrev DftS : Shape := ⟨2, ![800, 800]⟩
/-- The result's, f32[16, 1197, 401, 2]. -/
abbrev OutS : Shape := ⟨4, ![16, 1197, 401, 2]⟩

/-- Sample `n` of frame `f` sits at position `200·f + n` of the signal (the last frame ends at 239999). -/
def pos (f : Fin 1197) (n : Fin 800) : Fin 240000 := ⟨200 * f.val + n.val, by omega⟩

/-- An output bin as a row of a transform table. -/
def bin (k : Fin 401) : Fin 800 := ⟨k.val, by omega⟩

/-- The weighted sample: `sig[b, 200·f + n] · win[n]`. -/
def wsample (sig : SigS.Idx → EReal) (win : WinS.Idx → EReal) (b : Fin 16) (f : Fin 1197) (n : Fin 800) : EReal :=
  sig (ix2 b (pos f n)) * win (ix1 n)

/-- The table entry met by output coordinate `p`: cosine for `p = 0`, sine for `p = 1`. -/
def tab (cos sin : DftS.Idx → EReal) (k : Fin 401) (p : Fin 2) (n : Fin 800) : EReal :=
  if p.val = 0 then cos (ix2 (bin k) n) else sin (ix2 (bin k) n)

/-- One entry of the transform. -/
def stftAt (sig : SigS.Idx → EReal) (win : WinS.Idx → EReal) (cos sin : DftS.Idx → EReal)
    (b : Fin 16) (f : Fin 1197) (k : Fin 401) (p : Fin 2) : EReal :=
  ∑ n : Fin 800, wsample sig win b f n * tab cos sin k p n

/-- The whole result array. -/
def stft (sig : SigS.Idx → EReal) (win : WinS.Idx → EReal) (cos sin : DftS.Idx → EReal) : OutS.Idx → EReal :=
  fun i => stftAt sig win cos sin (i 0) (i 1) (i 2) (i 3)

theorem stft_ix4 (sig : SigS.Idx → EReal) (win : WinS.Idx → EReal) (cos sin : DftS.Idx → EReal)
    (b : Fin 16) (f : Fin 1197) (k : Fin 401) (p : Fin 2) :
    stft sig win cos sin (ix4 b f k p) = stftAt sig win cos sin b f k p := rfl

end Cert.Stft

end
-- ==== Proof.KI.Bridge.lean ====
/-
  The kernel's program is the short-time Fourier transform: the entries of the arrays the region reads, and the entry of
  the region's array each result entry is, put together.
-/
import proofs.«170321_j31473520345491_2_alg».proof.Proof.KI.Layout
import proofs.«170321_j31473520345491_2_alg».proof.Proof.Spec

noncomputable section

namespace Cert.KernelIdeal.Hand

open Cert.KernelIdeal Cert.KernelIdeal.Facts₀ Cert.KernelIdeal.Facts
open Idealize.ShloMosaic Idealize.ShloMosaic.ValueIdx

/-- Two rank-2 indices with equal coordinates are equal. -/
theorem ix2_congr {n0 n1 : Nat} {a a' : Fin n0} {b b' : Fin n1} (ha : a = a') (hb : b = b') : ix2 a b = ix2 a' b' := by
  subst ha; subst hb; rfl

/-- The kernel's program, as a function of its four arguments, is the transform: the re-laid region result over the
    padded frame matrix, the window row and the interleaved table is `stft`.

    Result entry `(b, f, k, p)` is the region's entry `(1197·b + f, 2·k + p)`: the inner product of row `1197·b + f` of
    the frame matrix — not a pad row, and frame `f` of batch row `b`, since `(1197·b + f) / 1197 = b` and
    `(1197·b + f) % 1197 = f` — weighted by the window, with column `2·k + p` of the table, which is row
    `(2·k + p) / 2 = k` of the cosine table when `(2·k + p) % 2 = p` is 0 and of the sine table when it is 1. Summand by
    summand that is `(sig[b, 200·f + n] · win[n]) · table[k, n]`. -/
theorem kernel_is_stft (a0 : Vec Ideal S16x240000 .f32) (a1 : Vec Ideal S800 .f32) (a2 a3 : Vec Ideal S800x800 .f32) :
    resultT (F := Ideal) (regionT (frameRowsT a0) (windowRowT a1) (tableT a2 a3)) = Cert.Stft.stft a0 a1 a2 a3 := by
  funext i
  obtain ⟨b, f, k, p, rfl⟩ : ∃ (b : Fin 16) (f : Fin 1197) (k : Fin 401) (p : Fin 2), i = ix4 b f k p :=
    ⟨i 0, i 1, i 2, i 3, eq_ix4 i⟩
  rw [resultT_apply, regionT_ix2, Cert.Stft.stft_ix4]
  unfold regionAt Cert.Stft.stftAt
  refine Finset.sum_congr rfl fun n _ => ?_
  rw [frameRowsT_apply, windowRowT_apply, tableT_apply]
  unfold Cert.Stft.wsample Cert.Stft.tab Cert.Stft.pos Cert.Stft.bin
  have hr : 1197 * b.val + f.val < 19152 := by omega
  rw [dif_pos hr]
  refine congrArg₂ (· * ·) (congrArg₂ (· * ·) (congrArg a0 (ix2_congr (Fin.ext ?_) (Fin.ext ?_))) rfl) ?_
  · show (1197 * b.val + f.val) / 1197 = b.val
    omega
  · show 200 * ((1197 * b.val + f.val) % 1197) + n.val = 200 * f.val + n.val
    omega
  · by_cases hp0 : p.val = 0
    · rw [if_pos hp0, if_pos (show (2 * k.val + p.val) % 2 = 0 by omega)]
      exact congrArg a2 (ix2_congr (Fin.ext (by show (2 * k.val + p.val) / 2 = k.val; omega)) rfl)
    · rw [if_neg hp0, if_neg (show ¬(2 * k.val + p.val) % 2 = 0 by omega)]
      exact congrArg a3 (ix2_congr (Fin.ext (by show (2 * k.val + p.val) / 2 = k.val; omega)) rfl)

end Cert.KernelIdeal.Hand

end
-- ==== Proof.RefIsStft.lean ====
/-
  The reference program's result is the short-time Fourier transform of the specification, entry by entry.

  The reference frames the signal by a gather: the start index of sample `n` of frame `f` is the 32-bit word
  `200·f + n`, built from two counters, and a test adds the signal length when that word is negative as a signed number.
  Since `200·1196 + 799 = 239999 < 2^31` the word never wraps and is never negative, and the gather's clamp to
  `[0, 239999]` leaves it in place: the gathered element at `(b, f, n)` is `sig[b, 200·f + n]`. Each gathered sample is
  multiplied by the window, the weighted frame is contracted over its 800 samples with a row of the cosine table or of the
  sine table, the first 401 rows are kept, and the two results are joined along a new last axis of extent two: coordinate
  0 there reads the cosine contraction, coordinate 1 the sine one. That is the specification's sum term by term, the
  products bracketed the same way, so nothing beyond index equations is used.
-/
import proofs.«170321_j31473520345491_2_alg».proof.Proof.Spec
import proofs.«170321_j31473520345491_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-! ## The index word `200·f + n` does not wrap -/

/-- For a frame `f < 1197` and a sample `n < 800` the 32-bit word `f·200 + n` is the natural number `200·f + n`:
    the product is at most `239200` and the sum at most `239999`, both below `2^32`, so neither operation wraps. -/
theorem word_toNat (f n : Nat) (hf : f < 1197) (hn : n < 800) :
    (BitVec.ofNat 32 f * 200#32 + BitVec.ofNat 32 n).toNat = 200 * f + n := by
  simp only [BitVec.toNat_add, BitVec.toNat_mul, BitVec.toNat_ofNat]
  omega

/-- Read as a signed number the word is the same natural number: `200·f + n ≤ 239999 < 2^31`, so its sign bit is clear. -/
theorem word_toInt (f n : Nat) (hf : f < 1197) (hn : n < 800) :
    (BitVec.ofNat 32 f * 200#32 + BitVec.ofNat 32 n).toInt = ((200 * f + n : Nat) : Int) := by
  rw [BitVec.toInt_eq_toNat_cond, word_toNat f n hf hn]
  rw [if_pos (by omega)]

/-- Hence the signed test "the word is below zero" is false: the bit it returns is `0`. -/
theorem word_not_neg (f n : Nat) (hf : f < 1197) (hn : n < 800) :
    IntOp.cmpi .slt (BitVec.ofNat 32 f * 200#32 + BitVec.ofNat 32 n) 0#32 = 0#1 := by
  unfold IntOp.cmpi
  show BitVec.ofBool (BitVec.slt _ _) = _
  rw [BitVec.slt, word_toInt f n hf hn]
  simp only [BitVec.toInt_zero, Nat.cast_add, Nat.cast_mul, Nat.cast_ofNat]
  have h : ¬ (200 * (f : Int) + (n : Int) < 0) := by omega
  rw [decide_eq_false h]
  rfl

/-! ## The array of start indices -/

local notation "gd" => gather_S16x240000_S1197x800x1_S16x1197x800_0_1_n_n_1_2_161

/-- The sum of the two broadcast counters at `(f, n)`: the frame counter times 200 plus the sample counter. -/
theorem v8_at (i : S1197x800.Idx) :
    val_main_v8 (F := Ideal) i = BitVec.ofNat 32 (i 0).val * 200#32 + BitVec.ofNat 32 (i 1).val := by
  rw [val_main_v8_apply, val_main_v6_apply, val_main_v4_apply, val_main_v2_apply, val_main_v0_apply,
    val_main_v1_apply, val_main_c_apply, val_main_v7_apply, val_main_v5_apply, val_main_v3_apply]
  rfl

/-- The select that would add the signal length to a negative index keeps the word: it is never negative. -/
theorem v13_at (i : S1197x800.Idx) :
    val_main_v13 (F := Ideal) i = BitVec.ofNat 32 (i 0).val * 200#32 + BitVec.ofNat 32 (i 1).val := by
  rw [val_main_v13_apply, val_main_v10_apply, val_main_v9_apply, val_main_c_0_apply, v8_at,
    word_not_neg _ _ (idx2_lt0 i) (idx2_lt1 i), select_zero]

/-- The start indices with their trailing axis of extent one, at `(f, n, 0)`: the word `f·200 + n`. -/
theorem v14_at (f : Fin 1197) (n : Fin 800) :
    val_main_v14 (F := Ideal) (ix3 f n (0 : Fin 1)) = BitVec.ofNat 32 f.val * 200#32 + BitVec.ofNat 32 n.val :=
  (val_main_v14_apply _).trans (v13_at _)

/-! ## The gather -/

/-- THE GATHERED ELEMENT at `(b, f, n)` is `sig[b, 200·f + n]`. On the signal's row axis (the one offset axis, with
    the full slice of 16) the operand coordinate is the result's own `b`: that axis is not in the start index map, so its
    start is 0. On the position axis (collapsed, slice size 1) it is the start index at `(f, n, 0)`, read signed and
    clamped into `[0, 240000 − 1]`; the index is the word `200·f + n`, which as a signed number is `200·f + n ≤ 239999`,
    so the clamp does nothing. -/
theorem v15_at (x0 : (⟨S16x240000, .f32⟩ : BufTy).Contents (Elt Ideal)) (b : Fin 16) (f : Fin 1197) (n : Fin 800) :
    val_main_v15 (F := Ideal) x0 (ix3 b f n) = x0 (ix2 b (Cert.Stft.pos f n)) := by
  unfold val_main_v15 Host.gather
  congr 1
  funext a
  refine Fin.ext ?_
  match a with
  | ⟨0, _⟩ =>
    show (gd).start (ix3 b f n) (val_main_v14 (F := Ideal)) 0 + (gd).batchCoord (ix3 b f n) 0 + (gd).offCoord (ix3 b f n) 0 = b.val
    rw [GatherDims.batchCoord_eq_zero _ _ _ List.not_mem_nil]
    unfold GatherDims.start
    rw [dif_neg (show ¬ (0 : Fin 2) ∈ (gd).startIndexMap by decide)]
    unfold GatherDims.offCoord
    rw [dif_pos (show (0 : Fin 2) ∈ (gd).sKept by decide)]
    simp only [Nat.add_zero, Nat.zero_add]
    rfl
  | ⟨1, _⟩ =>
    show (gd).start (ix3 b f n) (val_main_v14 (F := Ideal)) 1 + (gd).batchCoord (ix3 b f n) 1 + (gd).offCoord (ix3 b f n) 1 = 200 * f.val + n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gd).startIndexMap from List.mem_singleton.mpr rfl)]
    have hsi : (gd).siIdx (ix3 b f n) ⟨List.idxOf (1 : Fin 2) (gd).startIndexMap,
        List.idxOf_lt_length_iff.2 (List.mem_singleton.mpr rfl)⟩ = ix3 f n (0 : Fin 1) := by
      funext c; refine Fin.ext ?_
      match c with
      | ⟨0, _⟩ => rfl
      | ⟨1, _⟩ => rfl
      | ⟨2, _⟩ => rfl
    rw [hsi, v14_at, word_toInt _ _ f.isLt n.isLt, Int.toNat_natCast]
    show min (200 * f.val + n.val) (240000 - 1) = 200 * f.val + n.val
    have := f.isLt; have := n.isLt; omega

/-! ## The weighted frame and its two contractions -/

/-- The gathered sample times the window, which is broadcast along the batch and frame axes: at `(b, f, n)` it is
    `sig[b, 200·f + n] · win[n]`, the specification's weighted sample. -/
theorem v18_at (x0 : (⟨S16x240000, .f32⟩ : BufTy).Contents (Elt Ideal)) (x1 : (⟨S800, .f32⟩ : BufTy).Contents (Elt Ideal))
    (b : Fin 16) (f : Fin 1197) (n : Fin 800) :
    val_main_v18 (F := Ideal) x0 x1 (ix3 b f n) = Cert.Stft.wsample x0 x1 b f n := by
  rw [val_main_v18_apply, v15_at, val_main_v17_apply, val_main_v16_apply]
  have e : idx_main_v16 (idx_main_v17 (ix3 b f n)) = ix1 n := by
    funext a; match a with | ⟨0, _⟩ => rfl
  rw [e]
  rfl

/-- The contraction with the cosine table at `(b, f, k)`, `k` any of the 800 rows: the sum over the samples `n` of the
    weighted sample times `cos[k, n]` (the frame's sample axis against the table's column axis). -/
theorem v19_at (x0 : (⟨S16x240000, .f32⟩ : BufTy).Contents (Elt Ideal)) (x1 : (⟨S800, .f32⟩ : BufTy).Contents (Elt Ideal)) (x2 : (⟨S800x800, .f32⟩ : BufTy).Contents (Elt Ideal))
    (b : Fin 16) (f : Fin 1197) (k : Fin 800) :
    val_main_v19 (F := Ideal) x0 x1 x2 (ix3 b f k) = ∑ n : Fin 800, Cert.Stft.wsample x0 x1 b f n * x2 (ix2 k n) := by
  rw [val_main_v19_apply]
  refine Finset.sum_congr rfl fun n _ => ?_
  have el : lidx_main_v19 (ix3 b f k) n = ix3 b f n := by
    funext a; match a with | ⟨0, _⟩ => rfl | ⟨1, _⟩ => rfl | ⟨2, _⟩ => rfl
  have er : ridx_main_v19 (ix3 b f k) n = ix2 k n := by
    funext a; match a with | ⟨0, _⟩ => rfl | ⟨1, _⟩ => rfl
  rw [el, er, v18_at]

/-- Keeping rows `0 … 400` and adding a last axis of extent one: at `(b, f, k, 0)`, `k < 401`, the cosine contraction
    of row `k`. -/
theorem v23_at (x0 : (⟨S16x240000, .f32⟩ : BufTy).Contents (Elt Ideal)) (x1 : (⟨S800, .f32⟩ : BufTy).Contents (Elt Ideal)) (x2 : (⟨S800x800, .f32⟩ : BufTy).Contents (Elt Ideal))
    (b : Fin 16) (f : Fin 1197) (k : Fin 401) :
    val_main_v23 (F := Ideal) x0 x1 x2 (ix4 b f k (0 : Fin 1))
      = ∑ n : Fin 800, Cert.Stft.wsample x0 x1 b f n * x2 (ix2 (Cert.Stft.bin k) n) := by
  rw [val_main_v23_apply, val_main_v21_apply]
  have e : idx_main_v21 (idx_main_v23 (ix4 b f k (0 : Fin 1))) = ix3 b f (Cert.Stft.bin k) := by
    funext a; match a with | ⟨0, _⟩ => rfl | ⟨1, _⟩ => rfl | ⟨2, _⟩ => rfl
  rw [e, v19_at]

/-- The contraction with the sine table at `(b, f, k)`: the sum over `n` of the weighted sample times `sin[k, n]`. -/
theorem v20_at (x0 : (⟨S16x240000, .f32⟩ : BufTy).Contents (Elt Ideal)) (x1 : (⟨S800, .f32⟩ : BufTy).Contents (Elt Ideal)) (x3 : (⟨S800x800, .f32⟩ : BufTy).Contents (Elt Ideal))
    (b : Fin 16) (f : Fin 1197) (k : Fin 800) :
    val_main_v20 (F := Ideal) x0 x1 x3 (ix3 b f k) = ∑ n : Fin 800, Cert.Stft.wsample x0 x1 b f n * x3 (ix2 k n) := by
  rw [val_main_v20_apply]
  refine Finset.sum_congr rfl fun n _ => ?_
  have el : lidx_main_v20 (ix3 b f k) n = ix3 b f n := by
    funext a; match a with | ⟨0, _⟩ => rfl | ⟨1, _⟩ => rfl | ⟨2, _⟩ => rfl
  have er : ridx_main_v20 (ix3 b f k) n = ix2 k n := by
    funext a; match a with | ⟨0, _⟩ => rfl | ⟨1, _⟩ => rfl
  rw [el, er, v18_at]

/-- Its rows `0 … 400` with a last axis of extent one: at `(b, f, k, 0)` the sine contraction of row `k`. -/
theorem v24_at (x0 : (⟨S16x240000, .f32⟩ : BufTy).Contents (Elt Ideal)) (x1 : (⟨S800, .f32⟩ : BufTy).Contents (Elt Ideal)) (x3 : (⟨S800x800, .f32⟩ : BufTy).Contents (Elt Ideal))
    (b : Fin 16) (f : Fin 1197) (k : Fin 401) :
    val_main_v24 (F := Ideal) x0 x1 x3 (ix4 b f k (0 : Fin 1))
      = ∑ n : Fin 800, Cert.Stft.wsample x0 x1 b f n * x3 (ix2 (Cert.Stft.bin k) n) := by
  rw [val_main_v24_apply, val_main_v22_apply]
  have e : idx_main_v22 (idx_main_v24 (ix4 b f k (0 : Fin 1))) = ix3 b f (Cert.Stft.bin k) := by
    funext a; match a with | ⟨0, _⟩ => rfl | ⟨1, _⟩ => rfl | ⟨2, _⟩ => rfl
  rw [e, v20_at]

/-! ## Joining the two along the last axis -/

/-- Last coordinate 0 falls in the first piece (extent one along the joined axis): the result at `(b, f, k, 0)` is the
    cosine piece at `(b, f, k, 0)`. -/
theorem v25_at0 (x0 : (⟨S16x240000, .f32⟩ : BufTy).Contents (Elt Ideal)) (x1 : (⟨S800, .f32⟩ : BufTy).Contents (Elt Ideal)) (x2 : (⟨S800x800, .f32⟩ : BufTy).Contents (Elt Ideal)) (x3 : (⟨S800x800, .f32⟩ : BufTy).Contents (Elt Ideal))
    (b : Fin 16) (f : Fin 1197) (k : Fin 401) :
    val_main_v25 (F := Ideal) x0 x1 x2 x3 (ix4 b f k (0 : Fin 2)) = val_main_v23 (F := Ideal) x0 x1 x2 (ix4 b f k (0 : Fin 1)) := by
  unfold val_main_v25
  exact concatenate_pair_apply_left (t := S16x1197x401x2) (s₁ := S16x1197x401x1) (s₂ := S16x1197x401x1) 3
    (val_main_v23 (F := Ideal) x0 x1 x2) (val_main_v24 (F := Ideal) x0 x1 x3) _ (ix4 b f k (0 : Fin 2)) rfl (ix4 b f k (0 : Fin 1))
    (fun c => match c with | ⟨0, _⟩ => rfl | ⟨1, _⟩ => rfl | ⟨2, _⟩ => rfl | ⟨3, _⟩ => rfl)

/-- Last coordinate 1 is past the first piece's extent one, so it falls in the second piece at `1 − 1 = 0`: the result
    at `(b, f, k, 1)` is the sine piece at `(b, f, k, 0)`. -/
theorem v25_at1 (x0 : (⟨S16x240000, .f32⟩ : BufTy).Contents (Elt Ideal)) (x1 : (⟨S800, .f32⟩ : BufTy).Contents (Elt Ideal)) (x2 : (⟨S800x800, .f32⟩ : BufTy).Contents (Elt Ideal)) (x3 : (⟨S800x800, .f32⟩ : BufTy).Contents (Elt Ideal))
    (b : Fin 16) (f : Fin 1197) (k : Fin 401) :
    val_main_v25 (F := Ideal) x0 x1 x2 x3 (ix4 b f k (1 : Fin 2)) = val_main_v24 (F := Ideal) x0 x1 x3 (ix4 b f k (0 : Fin 1)) := by
  unfold val_main_v25
  exact concatenate_pair_apply_right (t := S16x1197x401x2) (s₁ := S16x1197x401x1) (s₂ := S16x1197x401x1) 3
    (val_main_v23 (F := Ideal) x0 x1 x2) (val_main_v24 (F := Ideal) x0 x1 x3) _ (ix4 b f k (1 : Fin 2)) rfl rfl (ix4 b f k (0 : Fin 1))
    (fun c hc => match c, hc with
      | ⟨0, _⟩, _ => rfl | ⟨1, _⟩, _ => rfl | ⟨2, _⟩, _ => rfl | ⟨3, _⟩, hc => absurd rfl hc)
    rfl

/-! ## The reference is the transform -/

/-- The reference's result array is the specification's transform of its four arguments: at `(b, f, k, p)` both are the
    sum over the 800 samples `n` of `(sig[b, 200·f + n] · win[n])` times `cos[k, n]` for `p = 0`, `sin[k, n]` for `p = 1`. -/
theorem ref_is_stft (x0 : (⟨S16x240000, .f32⟩ : BufTy).Contents (Elt Ideal)) (x1 : (⟨S800, .f32⟩ : BufTy).Contents (Elt Ideal)) (x2 x3 : (⟨S800x800, .f32⟩ : BufTy).Contents (Elt Ideal)) :
    Cert.ReferenceIdeal.Read.val_main_v25 (F := Ideal) x0 x1 x2 x3 = Cert.Stft.stft x0 x1 x2 x3 := by
  funext i
  obtain ⟨b, f, k, p, rfl⟩ : ∃ (b : Fin 16) (f : Fin 1197) (k : Fin 401) (p : Fin 2), i = ix4 b f k p :=
    ⟨_, _, _, _, eq_ix4 i⟩
  rw [Cert.Stft.stft_ix4]
  unfold Cert.Stft.stftAt Cert.Stft.tab
  match p with
  | ⟨0, _⟩ =>
    refine (v25_at0 x0 x1 x2 x3 b f k).trans ((v23_at x0 x1 x2 b f k).trans ?_)
    refine Finset.sum_congr rfl fun n _ => ?_
    rw [if_pos rfl]
  | ⟨1, _⟩ =>
    refine (v25_at1 x0 x1 x2 x3 b f k).trans ((v24_at x0 x1 x3 b f k).trans ?_)
    refine Finset.sum_congr rfl fun n _ => ?_
    rw [if_neg (show ¬ (1 : Nat) = 0 by decide)]

end Cert.ReferenceIdeal.RefValue

end
-- ==== Proof.lean ====
/-
  The certificate of a short-time Fourier transform kernel against its reference.

  Both programs take a batch of 16 signals of 240000 samples, a window of 800 weights and two 800 × 800 transform
  tables (cosine and sine).  Frame `f` (of 1197) of a signal is its 800 samples from position 200·f; every sample is
  weighted by the window, and output bin `k` (of 401) is the inner product of the weighted frame with row `k` of the
  cosine table (real part) or the sine table (imaginary part): the result is f32[16, 1197, 401, 2].

  The reference gathers the frames by computed positions, multiplies by the window, contracts with each table and
  stacks the two results.  The kernel's program cuts the signal into chunks of 200 and joins four shifted slices
  (the same frames, without a gather), lays the frames out as a matrix of 19152 rows padded to 19200, interleaves the
  two tables column by column, and lets a pipelined region of sixteen row blocks compute (rows ⊙ window) · table;
  the pad rows and the unused columns are then dropped and the axes split again.  At the ideal instance — floats
  extended reals, every operation exact, narrowing to bf16 the identity — each result entry is on both sides the sum
  over the 800 samples `n` of (signal[b, 200·f + n] · window[n]) · table[k, n], the products bracketed alike, so the two
  results are one function of the arguments (`Cert.Stft.stft`); no property of the inputs is used.

  The frames: each program terminates without a fault and leaves its arguments as launched — for the kernel at both
  instances because no host line writes an argument and the region stages only host results; for the reference
  because it is a straight line of host operations.  The idealization rewrote nothing, so `preserves` is trivial.
-/
import proofs.«170321_j31473520345491_2_alg».proof.Defs
import proofs.«170321_j31473520345491_2_alg».proof.Proof.Gen.Kernel
import proofs.«170321_j31473520345491_2_alg».proof.Proof.Gen.KernelIdeal
import proofs.«170321_j31473520345491_2_alg».proof.Proof.Gen.ReferenceIdeal
import proofs.«170321_j31473520345491_2_alg».proof.Proof.Gen.Pre_finite_inputs
import proofs.«170321_j31473520345491_2_alg».proof.Proof.Gen.ReferenceIdeal.Run
import proofs.«170321_j31473520345491_2_alg».proof.Proof.Gen.ReferenceIdeal.Read
import proofs.«170321_j31473520345491_2_alg».proof.Proof.KB.Frame
import proofs.«170321_j31473520345491_2_alg».proof.Proof.KI.Frame
import proofs.«170321_j31473520345491_2_alg».proof.Proof.KI.Value
import proofs.«170321_j31473520345491_2_alg».proof.Proof.KI.Bridge
import proofs.«170321_j31473520345491_2_alg».proof.Proof.RefIsStft
import Idealize.ShloMosaic.Adequacy
import Idealize.ShloMosaic.Init

noncomputable section

namespace Cert.Proof

open Idealize.ShloMosaic Idealize.ShloMosaic.TcCoe Idealize.SL.Sem

/-- The kernel's frame, at the word-level instance. -/
theorem frame_k : Cert.frame_Kernel := fun m ρ _ => Cert.Kernel.Hand.frame m ρ

/-- The idealized kernel's frame. -/
theorem frame_ki : Cert.frame_KernelIdeal := fun m ρ _ => Cert.KernelIdeal.Hand.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the transform of the arguments in their
    result buffers. -/
theorem algebraic : Cert.algebraic_KernelIdeal_ReferenceIdeal := by
  intro m ρ m' ρ' _ hagree
  refine ⟨fun c => Cert.Stft.stft (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_is_stft _ _ _ _), (h c).2⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.ref_is_stft,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
